-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_v48 : IVec S_ 1) (main_v50 : IVec S2x1600000 1) : IVec S_ 1 :=
  let main_c_19 : IVec S_ 1 := constantI S_ 1 1#1
  let main_v51 : IVec S_ 1 := (fun x v => Host.reduce IntOp.andi x v reducesTo_S2x1600000_S_d0_1 h_S_) main_v50 main_c_19
  let main_v52 : IVec S_ 1 := andi main_v48 main_v51
  main_v52

def fn_part2 {F : FTy → Type} [FloatOps F] (main_arg1 : IVec S2x1600000 32) (main_arg8 : FVec F S16 .f32) (main_arg9 : FVec F S16x1 .f32) (main_arg10 : FVec F S1 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x1 .f32 := Host.absf main_arg9
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S2x1600000 32 := broadcastInDim S2x1600000 ![] bcast_S_S2x1600000 main_c_18
  let main_v50 : IVec S2x1600000 1 := cmpi .sge main_arg1 main_v49
  fn_part3 (F := F) main_v48 main_v50

def fn_part1 {F : FTy → Type} [FloatOps F] (main_arg1 : IVec S2x1600000 32) (main_arg5 : FVec F S128x64 .f32) (main_arg6 : FVec F S64 .f32) (main_arg7 : FVec F S1x16 .f32) (main_arg8 : FVec F S16 .f32) (main_arg9 : FVec F S16x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x16 .f32 := Host.absf main_arg7
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x128 .f32) (main_arg1 : IVec S2x1600000 32) (main_arg2 : FVec F S1600000x1 .f32) (main_arg3 : FVec F S128x128 .f32) (main_arg4 : FVec F S128 .f32) (main_arg5 : FVec F S128x64 .f32) (main_arg6 : FVec F S64 .f32) (main_arg7 : FVec F S1x16 .f32) (main_arg8 : FVec F S16 .f32) (main_arg9 : FVec F S16x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x16 : Shape := ⟨2, ![1, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S1x1 : Shape := ⟨2, ![1, 1]⟩
abbrev S1x32000 : Shape := ⟨2, ![1, 32000]⟩
abbrev S16x32000 : Shape := ⟨2, ![16, 32000]⟩
abbrev S32000 : Shape := ⟨1, ![32000]⟩
abbrev S_ : Shape := ⟨0, ![]⟩
abbrev S100000 : Shape := ⟨1, ![100000]⟩
abbrev S5000x128 : Shape := ⟨2, ![5000, 128]⟩
abbrev S100000x1 : Shape := ⟨2, ![100000, 1]⟩
abbrev S1x128 : Shape := ⟨2, ![1, 128]⟩
abbrev S5000x1 : Shape := ⟨2, ![5000, 1]⟩
abbrev S1600000x128 : Shape := ⟨2, ![1600000, 128]⟩
abbrev S100000x64 : Shape := ⟨2, ![100000, 64]⟩
abbrev S5000x64 : Shape := ⟨2, ![5000, 64]⟩
abbrev S1x64 : Shape := ⟨2, ![1, 64]⟩
abbrev S1600000x64 : Shape := ⟨2, ![1600000, 64]⟩

abbrev nBuf : Space → Nat
  | .hbm => 115
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x1, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1600000, .f32⟩
  | .hbm, ⟨16, _⟩ => ⟨S1x1600000, .f32⟩
  | .hbm, ⟨17, _⟩ => ⟨S16x1, .f32⟩
  | .hbm, ⟨18, _⟩ => ⟨S16x1, .f32⟩
  | .hbm, ⟨19, _⟩ => ⟨S1x1, .f32⟩
  | .hbm, ⟨20, _⟩ => ⟨S1x1600000, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S1600000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000, .f32⟩
  | .hbm, ⟨60, _⟩ => ⟨S1600000, .f32⟩
  | .hbm, ⟨61, _⟩ => ⟨S100000x128, .f32⟩
  | .hbm, ⟨62, _⟩ => ⟨S100000x128, .bf16⟩
  | .hbm, ⟨63, _⟩ => ⟨S100000x1, .f32⟩
  | .hbm, ⟨64, _⟩ => ⟨S1x128, .f32⟩
  | .hbm, ⟨65, _⟩ => ⟨S100000x128, .f32⟩
  | .hbm, ⟨66, _⟩ => ⟨S1600000x1, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .bf16⟩
  | .hbm, ⟨76, _⟩ => ⟨S1600000x128, .f32⟩
  | .hbm, ⟨77, _⟩ => ⟨S1600000x128, .f32⟩
  | .hbm, ⟨78, _⟩ => ⟨S1600000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S100000x128, .f32⟩
  | .hbm, ⟨88, _⟩ => ⟨S100000x64, .f32⟩
  | .hbm, ⟨89, _⟩ => ⟨S100000x64, .bf16⟩
  | .hbm, ⟨90, _⟩ => ⟨S100000x1, .f32⟩
  | .hbm, ⟨91, _⟩ => ⟨S1x64, .f32⟩
  | .hbm, ⟨92, _⟩ => ⟨S100000x64, .f32⟩
  | .hbm, ⟨93, _⟩ => ⟨S1600000x1, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .bf16⟩
  | .hbm, ⟨103, _⟩ => ⟨S1600000x64, .f32⟩
  | .hbm, ⟨104, _⟩ => ⟨S1600000x64, .f32⟩
  | .hbm, ⟨105, _⟩ => ⟨S1600000x64, .f32⟩
  | .hbm, ⟨106, _⟩ => ⟨S_, .i32⟩
  | .hbm, ⟨107, _⟩ => ⟨S1600000, .i32⟩
  | .hbm, ⟨108, _⟩ => ⟨S1600000, .i1⟩
  | .hbm, ⟨109, _⟩ => ⟨S_, .i32⟩
  | .hbm, ⟨110, _⟩ => ⟨S1600000, .i32⟩
  | .hbm, ⟨111, _⟩ => ⟨S1600000, .i32⟩
  | .hbm, ⟨112, _⟩ => ⟨S1600000, .i32⟩
  | .hbm, ⟨113, _⟩ => ⟨S1600000x1, .i32⟩
  | .hbm, ⟨114, _⟩ => ⟨S100000x64, .f32⟩
  | .local _ .vmem, ⟨0, _⟩ => ⟨S1x32000, .f32⟩
  | .local _ .vmem, ⟨1, _⟩ => ⟨S1x32000, .f32⟩
  | .local _ .vmem, ⟨2, _⟩ => ⟨S16x1, .f32⟩
  | .local _ .vmem, ⟨3, _⟩ => ⟨S16x1, .f32⟩
  | .local _ .vmem, ⟨4, _⟩ => ⟨S16x1, .f32⟩
  | .local _ .vmem, ⟨5, _⟩ => ⟨S1x1, .f32⟩
  | .local _ .vmem, ⟨6, _⟩ => ⟨S1x32000, .f32⟩
  | .local _ .vmem, ⟨7, _⟩ => ⟨S1x32000, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x64, .bf16⟩
  | .local _ .vmem, ⟨28, _⟩ => ⟨S5000x64, .bf16⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61_0 : Ref sig .tc := ⟨.hbm, 88, rfl⟩
abbrev main_v61_1 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_13 : Ref sig .tc := ⟨.hbm, 106, rfl⟩
abbrev main_v76 : Ref sig .tc := ⟨.hbm, 107, rfl⟩
abbrev main_v77 : Ref sig .tc := ⟨.hbm, 108, rfl⟩
abbrev main_c_14 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  shapeCasts_S1600000_S1x1600000 : S1600000.ShapeCasts S1x1600000
  shapeCasts_S1x16_S16x1 : S1x16.ShapeCasts S16x1
  shapeCasts_S16_S16x1 : S16.ShapeCasts S16x1
  shapeCasts_S1_S1x1 : S1.ShapeCasts S1x1
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S16x1_S16x32000 : S16x1.Broadcasts S16x32000
  broadcasts_S1x32000_S16x32000 : S1x32000.Broadcasts S16x32000
  reduces_S16x32000_S32000 : S16x32000.Reduces [0] S32000
  shapeCasts_S32000_S1x32000 : S32000.ShapeCasts S1x32000
  broadcasts_S1x1_S1x32000 : S1x1.Broadcasts S1x32000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  shapeCasts_S100000_S100000x1 : S100000.ShapeCasts S100000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  bcast_S1600000x1_S1600000x128_0_1 : S1600000x1.BroadcastsInDim S1600000x128 (![0, 1] : Fin 2 → Fin S1600000x128.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  bcast_S1600000x1_S1600000x64_0_1 : S1600000x1.BroadcastsInDim S1600000x64 (![0, 1] : Fin 2 → Fin S1600000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32000.size a ≤ S1x1600000.size a
  hwx0_0 : ∀ i : grid0.Coords, EltTy.bits .f32 = 32 ∨ (Rect.block (s := S1x1600000) S1x32000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .f32 = 32 ∨ (Rect.block (s := S16x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32000.size a ≤ S1x1600000.size a
  hwx0_5 : ∀ i : grid0.Coords, EltTy.bits .f32 = 32 ∨ (Rect.block (s := S1x1600000) S1x32000.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .bf16 = 32 ∨ (Rect.block (s := S100000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .bf16 = 32 ∨ (Rect.block (s := S100000x64) S5000x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v5) S1x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x32000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39_1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61_0) S5000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61_1) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x16 : Shape := ⟨2, ![1, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S1600000x16 : Shape := ⟨2, ![1600000, 16]⟩
abbrev S_ : Shape := ⟨0, ![]⟩
abbrev S1x1 : Shape := ⟨2, ![1, 1]⟩
abbrev S100000 : Shape := ⟨1, ![100000]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 164
  | .vmem => 0
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S128x128, .f32⟩
  | 4 => ⟨S128, .f32⟩
  | 5 => ⟨S128x64, .f32⟩
  | 6 => ⟨S64, .f32⟩
  | 7 => ⟨S1x16, .f32⟩
  | 8 => ⟨S16, .f32⟩
  | 9 => ⟨S16x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S1600000x16, .f32⟩
  | 16 => ⟨S1x16, .f32⟩
  | 17 => ⟨S1600000x16, .f32⟩
  | 18 => ⟨S1600000x16, .f32⟩
  | 19 => ⟨S_, .f32⟩
  | 20 => ⟨S1600000x16, .f32⟩
  | 21 => ⟨S1600000x16, .f32⟩
  | 22 => ⟨S1600000x1, .f32⟩
  | 23 => ⟨S1x1, .f32⟩
  | 24 => ⟨S1600000x1, .f32⟩
  | 25 => ⟨S1600000x1, .f32⟩
  | 26 => ⟨S1600000x1, .f32⟩
  | 27 => ⟨S1600000x1, .f32⟩
  | 28 => ⟨S_, .f32⟩
  | 29 => ⟨S1600000x1, .f32⟩
  | 30 => ⟨S1600000x1, .f32⟩
  | 31 => ⟨S_, .f32⟩
  | 32 => ⟨S1600000x1, .f32⟩
  | 33 => ⟨S1600000x1, .f32⟩
  | 34 => ⟨S1600000, .f32⟩
  | 35 => ⟨S_, .f32⟩
  | 36 => ⟨S1600000, .f32⟩
  | 37 => ⟨S1600000, .f32⟩
  | 38 => ⟨S_, .f32⟩
  | 39 => ⟨S1600000, .f32⟩
  | 40 => ⟨S1600000, .f32⟩
  | 41 => ⟨S100000x128, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .i1⟩
  | 52 => ⟨S100000, .f32⟩
  | 53 => ⟨S_, .f32⟩
  | 54 => ⟨S_, .f32⟩
  | 55 => ⟨S100000, .f32⟩
  | 56 => ⟨S100000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000, .f32⟩
  | 66 => ⟨S1600000, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000, .f32⟩
  | 76 => ⟨S1600000, .f32⟩
  | 77 => ⟨S1600000x1, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S1600000x128, .f32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S100000, .f32⟩
  | 94 => ⟨S100000x1, .f32⟩
  | 95 => ⟨S100000x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x64, .f32⟩
  | 105 => ⟨S_, .f32⟩
  | 106 => ⟨S100000, .f32⟩
  | 107 => ⟨S1600000x1, .i32⟩
  | 108 => ⟨S100000, .f32⟩
  | 109 => ⟨S_, .f32⟩
  | 110 => ⟨S100000, .f32⟩
  | 111 => ⟨S100000, .f32⟩
  | 112 => ⟨S_, .f32⟩
  | 113 => ⟨S100000, .f32⟩
  | 114 => ⟨S100000, .i1⟩
  | 115 => ⟨S100000, .f32⟩
  | 116 => ⟨S_, .f32⟩
  | 117 => ⟨S_, .f32⟩
  | 118 => ⟨S100000, .f32⟩
  | 119 => ⟨S100000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000, .f32⟩
  | 1 => ⟨S1600000, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000, .f32⟩
  | 11 => ⟨S1600000, .f32⟩
  | 12 => ⟨S1600000x1, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000, .f32⟩
  | 29 => ⟨S100000x1, .f32⟩
  | 30 => ⟨S100000x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_v33 : Ref sig .tc := ⟨.hbm, 56, rfl⟩
abbrev main_c : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call2_cst : Ref sig .tc := ⟨.hbm, 101, rfl⟩
abbrev main_call2_v0 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_14 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_call3_v0 : Ref sig .tc := ⟨.hbm, 117, rfl⟩
abbrev main_call3_v1 : Ref sig .tc := ⟨.hbm, 118, rfl⟩
abbrev main_v81 : Ref sig .tc := ⟨.hbm, 119, rfl⟩
abbrev main_c_17 : Ref sig .tc := ⟨.hbm, 120, rfl⟩
abbrev main_v82 : Ref sig .tc := ⟨.hbm, 121, rfl⟩
abbrev main_v83 : Ref sig .tc := ⟨.hbm, 122, rfl⟩
abbrev main_c_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_19 : Ref sig .tc := ⟨.hbm, 130, rfl⟩
abbrev main_v90 : Ref sig .tc := ⟨.hbm, 131, rfl⟩
abbrev main_v91 : Ref sig .tc := ⟨.hbm, 132, rfl⟩
abbrev main_c_20 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_21 : Ref sig .tc := ⟨.hbm, 141, rfl⟩
abbrev main_v99 : Ref sig .tc := ⟨.hbm, 142, rfl⟩
abbrev main_v100 : Ref sig .tc := ⟨.hbm, 143, rfl⟩
abbrev main_c_22 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_23 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S1600000x1_S1x16_S1600000x16_1_0_0_1_n_n_wf : DotDims.WF S1600000x1 S1x16 S1600000x16 [1] [0] [0] [1] [] []
  dot_S1600000x16_S16x1_S1600000x1_1_0_0_1_n_n_wf : DotDims.WF S1600000x16 S16x1 S1600000x1 [1] [0] [0] [1] [] []
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S1600000x1_S1x16_S1600000x16_1_0_0_1_n_n : DotDims S1600000x1 S1x16 S1600000x16 where
  lhsContracting := [1]
  rhsContracting := [0]
  lhsNonContracting := [0]
  rhsNonContracting := [1]
  lhsBatch := []
  rhsBatch := []
  wf := dot_S1600000x1_S1x16_S1600000x16_1_0_0_1_n_n_wf
def dot_S1600000x16_S16x1_S1600000x1_1_0_0_1_n_n : DotDims S1600000x16 S16x1 S1600000x1 where
  lhsContracting := [1]
  rhsContracting := [0]
  lhsNonContracting := [0]
  rhsNonContracting := [1]
  lhsBatch := []
  rhsBatch := []
  wf := dot_S1600000x16_S16x1_S1600000x1_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel program's run with its result named.  Every weakly fair execution of the program terminates
  without a fault; the argument arrays end as launched, and the returned array ends at the value that the program's
  chain of host operations and tiled stages leaves in it — the fold of the program's thirteen segments over the launch
  memory, read at the result buffer.  The statement is the frame's with one more conjunct: after the last segment every
  unscoped buffer, the result among them, holds the fold's contents.
-/
import proofs.«104486_j88356067213587_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the segments' fold read at it, the arguments as launched. -/
theorem run : θ_run defs (onTc (τ := τ) (main (F := F))) ⟨m, fun _ => 0, ρ⟩ (fun r => ∀ c : Dev nD,
      r.2.mem ((c.tc : Thread nD τ).loc main_v82) = W13 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v82 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Out

end
-- ==== Proof.Spec.lean ====
/-
  The mathematics of the five tiled stages, stated once over literal shapes and the extended reals: what each stage's
  result array holds, index by index, as a function of the whole arrays the stage reads.  No program is imported here.
-/
import Idealize.ShloMosaic.PureOps.Ideal
import Idealize.ShloMosaic.Lib.ValueIdx

noncomputable section

namespace Cert.Spec

open Idealize.ShloMosaic Idealize.ShloMosaic.ValueIdx

/-- A rank-1 array of extended reals. -/
abbrev Arr1 (n : Nat) : Type := (⟨1, ![n]⟩ : Shape).Idx → EReal
/-- A rank-2 array of extended reals. -/
abbrev Arr2 (a b : Nat) : Type := (⟨2, ![a, b]⟩ : Shape).Idx → EReal

/-- The matrix product: entry (r, q) is the sum over k of x(r, k) · w(k, q). -/
def mm {M K N : Nat} (x : Arr2 M K) (w : Arr2 K N) : Arr2 M N :=
  fun i => ∑ k : Fin K, x (ix2 (i 0) k) * w (ix2 k (i 1))

/-- The rectifier against the literal zero word: max(x, +0.0) entry by entry. -/
def relu {M N : Nat} (x : Arr2 M N) : Arr2 M N :=
  fun i => max (x i) (Ideal.ofBits .f32 0x00000000#32)

/-- The self-loop term of one graph-convolution layer: d(r) · xw(r, q) + b(q), the scale a column and the bias a row. -/
def selfTerm {M D : Nat} (xw : Arr2 M D) (d : Arr2 M 1) (b : Arr2 1 D) : Arr2 M D :=
  fun i => d (ix2 (i 0) (0 : Fin 1)) * xw i + b (ix2 (0 : Fin 1) (i 1))

/-- The per-edge weight of the curvature network, edges along the second axis: with
    s(e) = Σ_j max(w1(j) · ec(e) + b1(j), +0.0) · w2(j) + b2, the weight is 0.1 + 0.9 · 1/(1 + exp(−s(e)))
    (the two decimal literals as their binary32 words). -/
def edgeW {E : Nat} (ec : Arr2 1 E) (w1 b1 w2 : Arr2 16 1) (b2 : Arr2 1 1) : Arr2 1 E :=
  fun i => Ideal.ofBits .f32 0x3DCCCCCD#32 + Ideal.ofBits .f32 0x3F666666#32 *
    Ideal.logistic ((∑ j : Fin 16,
        max (w1 (ix2 j (0 : Fin 1)) * ec (ix2 (0 : Fin 1) (i 1)) + b1 (ix2 j (0 : Fin 1))) (Ideal.ofBits .f32 0x00000000#32)
          * w2 (ix2 j (0 : Fin 1)))
      + b2 (ix2 (0 : Fin 1) (0 : Fin 1)))

end Cert.Spec

end
-- ==== Proof.Stage0.lean ====
/-
  The per-edge network (the first tiled stage): every block of the result array is the block of one whole-array
  function of the stage's five operand arrays, and the fifty blocks tile the array, so the array ends holding that
  function: 0.1 + 0.9 · logistic(Σ_j max(w1(j) · ec(e) + b1(j), +0.0) · w2(j) + b2) at every edge e.
-/
import proofs.«104486_j88356067213587_2_alg».proof.Proof.Gen.KernelIdeal.Frame
import proofs.«104486_j88356067213587_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Cert.KernelIdeal Cert.KernelIdeal.Gen Idealize.ShloMosaic Idealize.ShloMosaic.TcCoe Idealize.SL.Sem Idealize.ShloMosaic.ValueIdx
open scoped BigOperators

namespace Cert.KernelIdeal.Stage0

/-! ## Layout operations at an index -/

/-- A column `[a, 1]` broadcast over `[a, b]` reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast over `[1, b]` reads its one entry everywhere. -/
theorem broadcastTo_11_1b_apply {α : Type} {b : ℕ} (v : (⟨2, ![1, 1]⟩ : Shape).Idx → α)
    (h : (⟨2, ![1, 1]⟩ : Shape).Broadcasts ⟨2, ![1, b]⟩) (p : Fin 1) (q : Fin b) :
    broadcastTo ⟨2, ![1, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The sum over the sixteen rows of a `[16, 32000]` vector, read at column `e`. -/
theorem rowSum_apply (src : FVec Ideal S16x32000 .f32) (h : S16x32000.Reduces [0] S32000) (hφ : FKind.Formats .f32)
    (hacc : (0x00000000#32 : BitVec 32) = 0x00000000#32) (e : Fin 32000) :
    multiReduction (F := Ideal) .add [0] S32000 src 0x00000000#32 h hφ hacc (ix1 e) = ∑ k : Fin 16, src (ix2 k e) := by
  refine (Ideal.multiReduction_add_single src 0x00000000#32 h hφ hacc (ix1 e)).trans ?_
  refine Finset.sum_congr rfl fun k _ => congrArg src ?_
  funext a
  match a with
  | ⟨0, _⟩ => rfl
  | ⟨1, _⟩ => rfl

/-! ## The body's value at an index -/

/-- A logistic at an index is the logistic of the element. -/
theorem logistic_apply {s : Shape} {φ : FTy} (a : FVec Ideal s φ) (i : s.Idx) : logistic a i = Ideal.logistic (a i) := rfl

/-- One hidden unit's term at `(k, e)`: max(w1(k) · ec(e) + b1(k), +0.0) · w2(k). -/
theorem hidden_apply (x0 : Vec Ideal S1x32000 .f32) (x1 x2 x3 : Vec Ideal S16x1 .f32) (k : Fin 16) (e : Fin 32000) :
    mulf (maximumf (addf (mulf (broadcastTo S16x32000 x1 broadcasts_S16x1_S16x32000) (broadcastTo S16x32000 x0 broadcasts_S1x32000_S16x32000))
        (broadcastTo S16x32000 x2 broadcasts_S16x1_S16x32000)) (broadcast S16x32000 (Scalar.ofBits (F := Ideal) .f32 0x00000000#32)))
      (broadcastTo S16x32000 x3 broadcasts_S16x1_S16x32000) (ix2 k e)
      = max (x1 (ix2 k (0 : Fin 1)) * x0 (ix2 (0 : Fin 1) e) + x2 (ix2 k (0 : Fin 1))) (Ideal.ofBits .f32 0x00000000#32)
          * x3 (ix2 k (0 : Fin 1)) := by
  show max (broadcastTo S16x32000 x1 broadcasts_S16x1_S16x32000 (ix2 k e) * broadcastTo S16x32000 x0 broadcasts_S1x32000_S16x32000 (ix2 k e)
      + broadcastTo S16x32000 x2 broadcasts_S16x1_S16x32000 (ix2 k e)) (Ideal.ofBits .f32 0x00000000#32)
      * broadcastTo S16x32000 x3 broadcasts_S16x1_S16x32000 (ix2 k e) = _
  rw [broadcastTo_a1_ab_apply x1, broadcastTo_a1_ab_apply x2, broadcastTo_a1_ab_apply x3, broadcastTo_1b_ab_apply x0]

/-- The body's payload at `(u, e)`: 0.1 + 0.9 · logistic(Σ_k max(w1(k) · ec(e) + b1(k), +0.0) · w2(k) + b2). -/
theorem pay_apply (x0 : Vec Ideal S1x32000 .f32) (x1 x2 x3 : Vec Ideal S16x1 .f32) (x4 : Vec Ideal S1x1 .f32)
    (u : Fin 1) (e : Fin 32000) :
    k0_pay1 (F := Ideal) x0 x1 x2 x3 x4 (ix2 u e)
      = Ideal.ofBits .f32 0x3DCCCCCD#32 + Ideal.ofBits .f32 0x3F666666#32 *
        Ideal.logistic ((∑ j : Fin 16,
          max (x1 (ix2 j (0 : Fin 1)) * x0 (ix2 (0 : Fin 1) e) + x2 (ix2 j (0 : Fin 1))) (Ideal.ofBits .f32 0x00000000#32)
            * x3 (ix2 j (0 : Fin 1)))
        + x4 (ix2 (0 : Fin 1) (0 : Fin 1))) := by
  unfold k0_pay1
  simp only [shapeCast_self]
  rw [addf_apply, mulf_apply, broadcast_apply, broadcast_apply, logistic_apply, addf_apply, shapeCast_a_1a_apply,
    broadcastTo_11_1b_apply x4, Ideal.ofBits_def, Ideal.ofBits_def]
  refine congrArg (fun z => Ideal.ofBits .f32 0x3DCCCCCD#32 + Ideal.ofBits .f32 0x3F666666#32 * Ideal.logistic (z + x4 (ix2 (0 : Fin 1) (0 : Fin 1)))) ?_
  refine (rowSum_apply _ reduces_S16x32000_S32000 (.inl rfl) rfl e).trans ?_
  exact Finset.sum_congr rfl fun k _ => hidden_apply x0 x1 x2 x3 k e

/-! ## From blocks to the array -/

theorem zeros2 : (![0, 0] : Fin 2 → Nat) = fun _ => 0 := funext fun a => by fin_cases a <;> rfl

/-- The index maps over the grid: the two edge-column windows (the edge features and the result) sit at block `(0, t)`
    at point `t`; the four parameter windows at block `(0, 0)` at every point. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

section Blocks

variable (V : (c : Dev nD) → (b : Ref sig .tc) → Buf (Elt Ideal) ((c : Thread nD τ).loc b))

/-- The edge-feature block at point `t` is columns `32000 t … 32000 t + 31999` of the edge-feature array. -/
theorem iblk_ec (c : Dev nD) (t : Fin cfg0.N) (e : Fin 32000) (k : Fin 1600000) (hk : k.val = t.val * 32000 + e.val) :
    (iblk0 V c 0 t : Vec Ideal S1x32000 .f32) (ix2 (0 : Fin 1) e) = (V c main_v5 : Cert.Spec.Arr2 1 1600000) (ix2 (0 : Fin 1) k) := by
  obtain ⟨a0, a1, -⟩ := idx_facts t
  show V c main_v5 (((cfg0.win 0).blk t).view.emb (ix2 (0 : Fin 1) e)) = V c main_v5 (ix2 (0 : Fin 1) k)
  refine congrArg (V c main_v5) (funext fun a => Fin.ext ?_)
  match a with
  | ⟨0, _⟩ => show win0_0.index t (0 : Fin 2) * 1 + 1 * 0 = 0; omega
  | ⟨1, _⟩ => show win0_0.index t (1 : Fin 2) * 32000 + 1 * e.val = k.val; omega

/-- The first-layer weight block at every point is the whole `[16, 1]` array. -/
theorem iblk_w1 (c : Dev nD) (t : Fin cfg0.N) (j : Fin 16) :
    (iblk0 V c 1 t : Vec Ideal S16x1 .f32) (ix2 j (0 : Fin 1)) = (V c main_v6 : Cert.Spec.Arr2 16 1) (ix2 j (0 : Fin 1)) := by
  obtain ⟨-, -, b0, b1, -⟩ := idx_facts t
  show V c main_v6 (((cfg0.win 1).blk t).view.emb (ix2 j (0 : Fin 1))) = V c main_v6 (ix2 j (0 : Fin 1))
  refine congrArg (V c main_v6) (funext fun a => Fin.ext ?_)
  match a with
  | ⟨0, _⟩ => show win0_1.index t (0 : Fin 2) * 16 + 1 * j.val = j.val; omega
  | ⟨1, _⟩ => show win0_1.index t (1 : Fin 2) * 1 + 1 * 0 = 0; omega

/-- The first-layer bias block at every point is the whole `[16, 1]` array. -/
theorem iblk_b1 (c : Dev nD) (t : Fin cfg0.N) (j : Fin 16) :
    (iblk0 V c 2 t : Vec Ideal S16x1 .f32) (ix2 j (0 : Fin 1)) = (V c main_v7 : Cert.Spec.Arr2 16 1) (ix2 j (0 : Fin 1)) := by
  obtain ⟨-, -, -, -, c0, c1, -⟩ := idx_facts t
  show V c main_v7 (((cfg0.win 2).blk t).view.emb (ix2 j (0 : Fin 1))) = V c main_v7 (ix2 j (0 : Fin 1))
  refine congrArg (V c main_v7) (funext fun a => Fin.ext ?_)
  match a with
  | ⟨0, _⟩ => show win0_2.index t (0 : Fin 2) * 16 + 1 * j.val = j.val; omega
  | ⟨1, _⟩ => show win0_2.index t (1 : Fin 2) * 1 + 1 * 0 = 0; omega

/-- The second-layer weight block at every point is the whole `[16, 1]` array. -/
theorem iblk_w2 (c : Dev nD) (t : Fin cfg0.N) (j : Fin 16) :
    (iblk0 V c 3 t : Vec Ideal S16x1 .f32) (ix2 j (0 : Fin 1)) = (V c main_arg9 : Cert.Spec.Arr2 16 1) (ix2 j (0 : Fin 1)) := by
  obtain ⟨-, -, -, -, -, -, d0, d1, -⟩ := idx_facts t
  show V c main_arg9 (((cfg0.win 3).blk t).view.emb (ix2 j (0 : Fin 1))) = V c main_arg9 (ix2 j (0 : Fin 1))
  refine congrArg (V c main_arg9) (funext fun a => Fin.ext ?_)
  match a with
  | ⟨0, _⟩ => show win0_3.index t (0 : Fin 2) * 16 + 1 * j.val = j.val; omega
  | ⟨1, _⟩ => show win0_3.index t (1 : Fin 2) * 1 + 1 * 0 = 0; omega

/-- The second-layer bias block at every point is the whole `[1, 1]` array. -/
theorem iblk_b2 (c : Dev nD) (t : Fin cfg0.N) :
    (iblk0 V c 4 t : Vec Ideal S1x1 .f32) (ix2 (0 : Fin 1) (0 : Fin 1)) = (V c main_v8 : Cert.Spec.Arr2 1 1) (ix2 (0 : Fin 1) (0 : Fin 1)) := by
  obtain ⟨-, -, -, -, -, -, -, -, g0, g1, -⟩ := idx_facts t
  show V c main_v8 (((cfg0.win 4).blk t).view.emb (ix2 (0 : Fin 1) (0 : Fin 1))) = V c main_v8 (ix2 (0 : Fin 1) (0 : Fin 1))
  refine congrArg (V c main_v8) (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-- WHAT POINT `t` WRITES BACK is block `t` of the per-edge weight of the five operand arrays as the stage finds them. -/
theorem flushed_eq (c : Dev nD) (t : Fin cfg0.N) :
    (dat0 (F := Ideal) V c).flushed 5 t = ((cfg0.win 5).blk t).view.read (Elt Ideal)
      (Cert.Spec.edgeW (V c main_v5) (V c main_v6) (V c main_v7) (V c main_arg9) (V c main_v8)) := by
  show (cfg0.win 5).cut (grid0.coords t) ((dat0 V c).after 5 t) = _
  rw [after0_5]
  unfold out0_5
  rw [View.canon_unit_zero zeros2]
  simp only [View.ld_unit_zero (S := S1x32000) zeros2, View.ld_unit_zero (S := S16x1) zeros2, View.ld_unit_zero (S := S1x1) zeros2]
  obtain ⟨-, -, -, -, -, -, -, -, -, -, o0, o1⟩ := idx_facts t
  funext j
  obtain ⟨u, e, rfl⟩ : ∃ (u : Fin 1) (e : Fin 32000), j = ix2 u e := ⟨j 0, j 1, eq_ix2 j⟩
  show k0_pay1 (F := Ideal) (iblk0 V c 0 t) (iblk0 V c 1 t) (iblk0 V c 2 t) (iblk0 V c 3 t) (iblk0 V c 4 t) (ix2 u e)
    = Cert.Spec.edgeW (V c main_v5) (V c main_v6) (V c main_v7) (V c main_arg9) (V c main_v8) (((cfg0.win 5).blk t).view.emb (ix2 u e))
  refine (pay_apply _ _ _ _ _ u e).trans ?_
  unfold Cert.Spec.edgeW
  have hk : ((((cfg0.win 5).blk t).view.emb (ix2 u e)) 1).val = t.val * 32000 + e.val := by
    show win0_5.index t (1 : Fin 2) * 32000 + 1 * e.val = t.val * 32000 + e.val
    omega
  rw [iblk_ec V c t e _ hk, iblk_b2 V c t]
  simp only [iblk_w1 V c t, iblk_b1 V c t, iblk_w2 V c t]

end Blocks

/-! ## The fifty blocks tile the array -/

/-- An index of the result array is in point `t`'s block iff each coordinate is in the block's range on its axis. -/
theorem mem_blk (t : Fin cfg0.N) (i : S1x1600000.Idx) :
    i ∈ ((cfg0.win 5).blk t).view.set ↔ ∀ a : Fin 2, win0_5.index t a * S1x32000.size a ≤ (i a).val
      ∧ (i a).val < win0_5.index t a * S1x32000.size a + S1x32000.size a := by
  show i ∈ ((View.whole main_v9).slice (win0_5.rect t)).set ↔ _
  rw [View.set_slice_whole, Rect.mem_set_unit]
  exact Iff.rfl

/-- Every edge `e` lies in the block of point `e / 32000`, which writes back. -/
theorem cover (i : S1x1600000.Idx) :
    ∃ t : Fin cfg0.N, (cfg0.win 5).flush t = true ∧ i ∈ ((cfg0.win 5).blk t).view.set := by
  have hi0 : (i 0).val < 1 := (i 0).isLt
  have hi1 : (i 1).val < 1600000 := (i 1).isLt
  have hN : cfg0.N = 50 := N_0
  obtain ⟨t, ht⟩ : ∃ t : Fin cfg0.N, t.val = (i 1).val / 32000 := ⟨⟨(i 1).val / 32000, by omega⟩, rfl⟩
  obtain ⟨-, -, -, -, -, -, -, -, -, -, o0, o1⟩ := idx_facts t
  refine ⟨t, flush0_5 t, ?_⟩
  rw [mem_blk]
  intro a
  match a with
  | ⟨0, _⟩ =>
    show win0_5.index t (0 : Fin 2) * 1 ≤ (i 0).val ∧ (i 0).val < win0_5.index t (0 : Fin 2) * 1 + 1
    omega
  | ⟨1, _⟩ =>
    show win0_5.index t (1 : Fin 2) * 32000 ≤ (i 1).val ∧ (i 1).val < win0_5.index t (1 : Fin 2) * 32000 + 32000
    omega

/-! ## The result array -/

/-- THE ARRAY after the stage: the per-edge weight of the five operand arrays as the stage finds them. -/
theorem final0_5 (V : (c : Dev nD) → (b : Ref sig .tc) → Buf (Elt Ideal) ((c : Thread nD τ).loc b)) (c : Dev nD) :
    (dat0 (F := Ideal) V c).arrAt 5 cfg0.N
      = Cert.Spec.edgeW (V c main_v5) (V c main_v6) (V c main_v7) (V c main_arg9) (V c main_v8) :=
  (dat0 (F := Ideal) V c).arrAt_eq_of_cover 5 _ (fun t _ => flushed_eq V c t) cover

end Cert.KernelIdeal.Stage0

end
-- ==== Proof.RefEdge.lean ====
/-
  The reference's per-edge weight is the specification's: for edge e, with the hidden pre-activations
  w1(j) · ec(e) + b1(j) rectified against +0.0, contracted with w2 and shifted by b2 into s(e), both sides hold
  0.1 + 0.9 · 1/(1 + exp(−s(e))) (the two decimal literals as their binary32 words). The reference contracts a unit
  axis (a sum over one term), adds row-broadcast biases, spells the logistic as negate, exponential, add one, divide
  one, and flattens [E, 1] to [E]; the specification reads the same operands through reshapes and writes the product
  of the first layer in the other order.
-/
import proofs.«104486_j88356067213587_2_alg».proof.Proof.Gen.ReferenceIdeal.Read
import proofs.«104486_j88356067213587_2_alg».proof.Proof.Spec
import Idealize.ShloMosaic.Lib.ValueIdx
import Idealize.ShloMosaic.Lib.IdealHost
import Idealize.ShloMosaic.Lib.Pipeline.Value

noncomputable section

namespace Cert.RefSide

open Cert.ReferenceIdeal Cert.ReferenceIdeal.Read Idealize.ShloMosaic Idealize.ShloMosaic.ValueIdx

/-! ## The specification's reshaped operands read at an index

Each reshape keeps the row-major position, so a reshaped array at an index is the original at the index with the same
row-major position. -/

/-- The edge curvatures [E, 1] → [E] → [1, E]: entry (0, c) is the original's entry (c, 0). -/
theorem ec_read (x2 : FVec Ideal S1600000x1 .f32) (h1 : S1600000x1.ShapeCasts S1600000)
    (h2 : S1600000.ShapeCasts S1x1600000) (c : Fin 1600000) :
    shapeCast S1x1600000 (shapeCast S1600000 x2 h1) h2 (ix2 (0 : Fin 1) c) = x2 (ix2 c (0 : Fin 1)) :=
  (shapeCast_apply (shapeCast S1600000 x2 h1) h2 (ix2 (0 : Fin 1) c) (ix1 c)
    (by rewrite [Shape.rowMajor_val_two, Shape.rowMajor_val_one]; show c.val = 0 * 1600000 + c.val; omega)).trans
  (shapeCast_apply x2 h1 (ix1 c) (ix2 c (0 : Fin 1))
    (by rewrite [Shape.rowMajor_val_two, Shape.rowMajor_val_one]; show c.val * 1 + 0 = c.val; omega))

/-- The first layer's weights [1, 16] → [16, 1]: entry (j, 0) is the original's entry (0, j). -/
theorem w1_read (x7 : FVec Ideal S1x16 .f32) (h3 : S1x16.ShapeCasts S16x1) (j : Fin 16) :
    shapeCast S16x1 x7 h3 (ix2 j (0 : Fin 1)) = x7 (ix2 (0 : Fin 1) j) :=
  shapeCast_apply x7 h3 (ix2 j (0 : Fin 1)) (ix2 (0 : Fin 1) j)
    (by rewrite [Shape.rowMajor_val_two, Shape.rowMajor_val_two]; show 0 * 16 + j.val = j.val * 1 + 0; omega)

/-- The first layer's bias [16] → [16, 1]: entry (j, 0) is the original's entry j. -/
theorem b1_read (x8 : FVec Ideal S16 .f32) (h4 : S16.ShapeCasts S16x1) (j : Fin 16) :
    shapeCast S16x1 x8 h4 (ix2 j (0 : Fin 1)) = x8 (ix1 j) :=
  shapeCast_apply x8 h4 (ix2 j (0 : Fin 1)) (ix1 j)
    (by rewrite [Shape.rowMajor_val_two, Shape.rowMajor_val_one]; show j.val = j.val * 1 + 0; omega)

/-- The second layer's bias [1] → [1, 1]: its one entry. -/
theorem b2_read (x10 : FVec Ideal S1 .f32) (h5 : S1.ShapeCasts S1x1) :
    shapeCast S1x1 x10 h5 (ix2 (0 : Fin 1) (0 : Fin 1)) = x10 (ix1 (0 : Fin 1)) :=
  shapeCast_apply x10 h5 (ix2 (0 : Fin 1) (0 : Fin 1)) (ix1 (0 : Fin 1))
    (by rewrite [Shape.rowMajor_val_two, Shape.rowMajor_val_one]; show 0 = 0 * 1 + 0; omega)

/-! ## The reference's stages at an index -/

/-- Hidden unit k of edge c: the contraction over the unit axis is its one term ec(c) · w1(k); with the row-broadcast
    bias and the rectifier against the splat zero word it is max(w1(k) · ec(c) + b1(k), +0.0), the product commuted. -/
theorem ref_hidden (x2 : FVec Ideal S1600000x1 .f32) (x7 : FVec Ideal S1x16 .f32) (x8 : FVec Ideal S16 .f32)
    (c : Fin 1600000) (k : Fin 16) :
    val_main_v8 (F := Ideal) x2 x7 x8 (ix2 c k)
      = max (x7 (ix2 (0 : Fin 1) k) * x2 (ix2 c (0 : Fin 1)) + x8 (ix1 k)) (Ideal.ofBits .f32 0x00000000#32) := by
  have e4l : lidx_main_v4 (ix2 c k) (0 : Fin 1) = ix2 c (0 : Fin 1) :=
    funext fun a => Fin.ext (by match a with | ⟨0, _⟩ => rfl | ⟨1, _⟩ => rfl)
  have e4r : ridx_main_v4 (ix2 c k) (0 : Fin 1) = ix2 (0 : Fin 1) k :=
    funext fun a => Fin.ext (by match a with | ⟨0, _⟩ => rfl | ⟨1, _⟩ => rfl)
  have e5 : idx_main_v5 (idx_main_v6 (ix2 c k)) = ix1 k :=
    funext fun a => Fin.ext (by match a with | ⟨0, _⟩ => rfl)
  rw [val_main_v8_apply, val_main_call0_v0_apply, val_main_call0_cst_apply, val_main_v7_apply, val_main_v4_apply,
    val_main_v6_apply, val_main_v5_apply, Fin.sum_univ_one, e4l, e4r, e5, mul_comm (x2 _) (x7 _)]
  rfl

/-- The pre-activation of edge c: the contraction over the 16 hidden units with w2, plus the broadcast bias b2. -/
theorem ref_s (x2 : FVec Ideal S1600000x1 .f32) (x7 : FVec Ideal S1x16 .f32) (x8 : FVec Ideal S16 .f32)
    (x9 : FVec Ideal S16x1 .f32) (x10 : FVec Ideal S1 .f32) (c : Fin 1600000) :
    val_main_v12 (F := Ideal) x2 x7 x8 x9 x10 (ix2 c (0 : Fin 1))
      = (∑ k : Fin 16,
            max (x7 (ix2 (0 : Fin 1) k) * x2 (ix2 c (0 : Fin 1)) + x8 (ix1 k)) (Ideal.ofBits .f32 0x00000000#32)
              * x9 (ix2 k (0 : Fin 1)))
          + x10 (ix1 (0 : Fin 1)) := by
  have e10 : idx_main_v10 (idx_main_v11 (ix2 c (0 : Fin 1))) = ix1 (0 : Fin 1) :=
    funext fun a => Fin.ext (by match a with | ⟨0, _⟩ => rfl)
  rw [val_main_v12_apply, val_main_v9_apply, val_main_v11_apply, val_main_v10_apply, e10, Ideal.addf_def]
  refine congrArg (· + x10 (ix1 (0 : Fin 1))) (Finset.sum_congr rfl fun k _ => ?_)
  have e9l : lidx_main_v9 (ix2 c (0 : Fin 1)) k = ix2 c k :=
    funext fun a => Fin.ext (by match a with | ⟨0, _⟩ => rfl | ⟨1, _⟩ => rfl)
  have e9r : ridx_main_v9 (ix2 c (0 : Fin 1)) k = ix2 k (0 : Fin 1) :=
    funext fun a => Fin.ext (by match a with | ⟨0, _⟩ => rfl | ⟨1, _⟩ => rfl)
  rw [e9l, e9r, ref_hidden]

/-- Negate, exponential, add the word of one, divide the word of one by it: the logistic function of the
    pre-activation, the binary32 word 0x3F800000 being the extended real one. -/
theorem ref_sig (x2 : FVec Ideal S1600000x1 .f32) (x7 : FVec Ideal S1x16 .f32) (x8 : FVec Ideal S16 .f32)
    (x9 : FVec Ideal S16x1 .f32) (x10 : FVec Ideal S1 .f32) (j : S1600000x1.Idx) :
    val_main_v18 (F := Ideal) x2 x7 x8 x9 x10 j = Ideal.logistic (val_main_v12 (F := Ideal) x2 x7 x8 x9 x10 j) := by
  rw [val_main_v18_apply, val_main_v17_apply, val_main_cst_0_apply, val_main_v16_apply, val_main_v15_apply,
    val_main_cst_apply, val_main_v14_apply, val_main_v13_apply]
  simp only [Ideal.hostDivf_def, Ideal.addf_def, Ideal.hostUnary_exp_def, Ideal.hostNegf_def, Ideal.negf_def,
    Ideal.ofBits_def, Ideal.ofBits_one_f32]
  rfl

/-! ## The per-edge weight -/

/-- The specification's per-edge weight over the reshaped operands, flattened [1, E] → [E], is the reference's
    stage %23. -/
theorem edge_eq (x2 : FVec Ideal S1600000x1 .f32) (x7 : FVec Ideal S1x16 .f32) (x8 : FVec Ideal S16 .f32)
    (x9 : FVec Ideal S16x1 .f32) (x10 : FVec Ideal S1 .f32)
    (h1 : S1600000x1.ShapeCasts S1600000) (h2 : S1600000.ShapeCasts S1x1600000) (h3 : S1x16.ShapeCasts S16x1)
    (h4 : S16.ShapeCasts S16x1) (h5 : S1.ShapeCasts S1x1) (h6 : S1x1600000.ShapeCasts S1600000) :
    shapeCast S1600000 (Cert.Spec.edgeW (shapeCast S1x1600000 (shapeCast S1600000 x2 h1) h2) (shapeCast S16x1 x7 h3)
        (shapeCast S16x1 x8 h4) x9 (shapeCast S1x1 x10 h5)) h6
      = val_main_v23 (F := Ideal) x2 x7 x8 x9 x10 := by
  funext e
  obtain ⟨c, rfl⟩ : ∃ c : Fin 1600000, e = ix1 c := ⟨e 0, eq_ix1 e⟩
  have e19 : idx_main_v19 (ix1 c) = ix2 c (0 : Fin 1) :=
    funext fun a => Fin.ext (by match a with | ⟨0, _⟩ => exact Nat.div_one _ | ⟨1, _⟩ => rfl)
  rw [val_main_v23_apply, val_main_v22_apply, val_main_cst_2_apply, val_main_v21_apply, val_main_v20_apply,
    val_main_cst_1_apply, val_main_v19_apply, e19, ref_sig, ref_s]
  refine (shapeCast_apply _ h6 (ix1 c) (ix2 (0 : Fin 1) c)
    (by rewrite [Shape.rowMajor_val_two, Shape.rowMajor_val_one]; show 0 * 1600000 + c.val = c.val; omega)).trans ?_
  show Ideal.ofBits .f32 0x3DCCCCCD#32 + Ideal.ofBits .f32 0x3F666666#32 * Ideal.logistic
      ((∑ j : Fin 16,
          max (shapeCast S16x1 x7 h3 (ix2 j (0 : Fin 1))
                * shapeCast S1x1600000 (shapeCast S1600000 x2 h1) h2 (ix2 (0 : Fin 1) c)
              + shapeCast S16x1 x8 h4 (ix2 j (0 : Fin 1))) (Ideal.ofBits .f32 0x00000000#32)
            * x9 (ix2 j (0 : Fin 1)))
        + shapeCast S1x1 x10 h5 (ix2 (0 : Fin 1) (0 : Fin 1))) = _
  simp only [w1_read, ec_read, b1_read, b2_read]
  rfl

end Cert.RefSide

end
-- ==== Proof.SpecFacts.lean ====
/-
  Order facts about the specification on the extended reals: the literal words that enter the degree guard, the
  exponential and the logistic function are non-negative everywhere (at both infinities too), hence every per-edge
  weight 0.1 + 0.9 · logistic(s) is non-negative; and a number that is at least 1 is its own maximum with the tiny
  positive guard word.
-/
import Idealize.ShloMosaic.PureOps.Ideal
import proofs.«104486_j88356067213587_2_alg».proof.Proof.Spec

noncomputable section

namespace Cert.SpecFacts

open Idealize.ShloMosaic Idealize.ShloMosaic.ValueIdx

/-- The word of +0.0 denotes 0. -/
theorem ofBits_zero : Ideal.ofBits .f32 0x00000000#32 = (0 : EReal) := by
  simp [Ideal.ofBits, Ideal.ieee]

/-- The word of 1.0 denotes 1. -/
theorem ofBits_one : Ideal.ofBits .f32 0x3F800000#32 = (1 : EReal) := by
  simp [Ideal.ofBits, Ideal.ieee, -EReal.coe_mul]; norm_num

/-- The word of 0.9 (rounded to binary32) denotes a non-negative number. -/
theorem c09_nonneg : (0 : EReal) ≤ Ideal.ofBits .f32 0x3F666666#32 := by
  simp [Ideal.ofBits, Ideal.ieee, -EReal.coe_mul]

/-- The word of 0.1 (rounded to binary32) denotes a non-negative number. -/
theorem c01_nonneg : (0 : EReal) ≤ Ideal.ofBits .f32 0x3DCCCCCD#32 := by
  simp [Ideal.ofBits, Ideal.ieee, -EReal.coe_mul]

/-- The guard word (1e-30 rounded to binary32) denotes a number that is at most 1. -/
theorem tiny_le_one : Ideal.ofBits .f32 0x0DA24260#32 ≤ (1 : EReal) := by
  simp [Ideal.ofBits, Ideal.ieee, -EReal.coe_mul]
  exact_mod_cast (by norm_num : (10633824 * ((2 : ℝ) ^ 123)⁻¹) ≤ 1)

/-- The exponential is non-negative on the whole extended line: 0 at −∞, +∞ at +∞. -/
theorem exp_nonneg (x : EReal) : (0 : EReal) ≤ Ideal.exp x := by
  induction x using EReal.rec with
  | bot => show (0 : EReal) ≤ 0; exact le_refl _
  | top => show (0 : EReal) ≤ ⊤; exact le_top
  | coe r => show (0 : EReal) ≤ ((Real.exp r : ℝ) : EReal); exact EReal.coe_nonneg.mpr (Real.exp_pos r).le

/-- The logistic function 1 / (1 + exp(−x)) is non-negative on the whole extended line. -/
theorem logistic_nonneg (x : EReal) : (0 : EReal) ≤ Ideal.logistic x := by
  have h1 : (0 : EReal) ≤ 1 + Ideal.exp (-x) := add_nonneg zero_le_one (exp_nonneg _)
  have hne : (1 : EReal) + Ideal.exp (-x) ≠ 0 := by
    have : (0 : EReal) < 1 + Ideal.exp (-x) := lt_of_lt_of_le zero_lt_one (le_add_of_nonneg_right (exp_nonneg _))
    exact this.ne'
  unfold Ideal.logistic Ideal.div
  rw [if_neg hne, one_mul]
  exact EReal.inv_nonneg_of_nonneg h1

/-- Every per-edge weight is non-negative. -/
theorem edgeW_nonneg {E : Nat} (ec : Cert.Spec.Arr2 1 E) (w1 b1 w2 : Cert.Spec.Arr2 16 1) (b2 : Cert.Spec.Arr2 1 1)
    (i : (⟨2, ![1, E]⟩ : Shape).Idx) : (0 : EReal) ≤ Cert.Spec.edgeW ec w1 b1 w2 b2 i := by
  unfold Cert.Spec.edgeW
  exact add_nonneg c01_nonneg (mul_nonneg c09_nonneg (logistic_nonneg _))

/-- A number that is at least 1 is unchanged by the maximum with the guard word. -/
theorem max_guard {d : EReal} (h : (1 : EReal) ≤ d) : max d (Ideal.ofBits .f32 0x0DA24260#32) = d :=
  max_eq_left (le_trans tiny_le_one h)

end Cert.SpecFacts

end
-- ==== Proof.LibScatterAdd.lean ====
/-
  The host's accumulating scatter on the extended reals, two general facts (any shapes, any dimension numbers, any
  format): the scatter onto a seed is, entry by entry, the seed plus the same scatter onto an all-zero array; and the
  scatter of non-negative updates onto a non-negative seed is non-negative.  Both read the scatter as what it is at the
  ideal instance: each entry of the seed plus the sum of the updates that land on it.
-/
import Idealize.ShloMosaic.PureOps.Ideal
import Idealize.ShloMosaic.PureOps.Contract

noncomputable section

namespace Cert.LibScatterAdd

open Idealize.ShloMosaic

variable {s si su : Shape} {w : Nat} {φ : FTy}

/-- Scattering onto a seed `x` is the seed plus scattering onto any array `z` that is zero everywhere. -/
theorem scatterAdd_seed (d : ScatterDims s si su) (x z : FVec Ideal s φ) (idx : IVec si w) (u : FVec Ideal su φ)
    (hz : ∀ i, z i = (0 : EReal)) (i : s.Idx) :
    (Host.scatterAdd d x idx u i : EReal) = (x i : EReal) + (Host.scatterAdd d z idx u i : EReal) := by
  show (x i : EReal) + _ = (x i : EReal) + ((z i : EReal) + _)
  rw [hz i, zero_add]

/-- Non-negative updates scattered onto a non-negative seed leave every entry non-negative. -/
theorem scatterAdd_nonneg (d : ScatterDims s si su) (x : FVec Ideal s φ) (idx : IVec si w) (u : FVec Ideal su φ)
    (hx : ∀ i, (0 : EReal) ≤ x i) (hu : ∀ j, (0 : EReal) ≤ u j) (i : s.Idx) :
    (0 : EReal) ≤ (Host.scatterAdd d x idx u i : EReal) := by
  show (0 : EReal) ≤ (x i : EReal) + _
  exact add_nonneg (hx i) (Finset.sum_nonneg fun j _ => hu j)

end Cert.LibScatterAdd

end
-- ==== Proof.RefGuard.lean ====
/-
  Every node degree of the reference is at least 1: a degree is the sum of the per-edge weights that land on the node,
  each of them non-negative, scattered onto an all-zero array, plus 1.  Hence the maximum of a degree with the tiny
  positive guard word is the degree itself.
-/
import proofs.«104486_j88356067213587_2_alg».proof.Proof.Gen.ReferenceIdeal.Read
import proofs.«104486_j88356067213587_2_alg».proof.Proof.Spec
import proofs.«104486_j88356067213587_2_alg».proof.Proof.SpecFacts
import proofs.«104486_j88356067213587_2_alg».proof.Proof.LibScatterAdd
import proofs.«104486_j88356067213587_2_alg».proof.Proof.RefEdge
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx

/-- A cast of a non-negative array to another shape is non-negative: each entry is an entry of the operand. -/
theorem shapeCast_nonneg {s t : Shape} (f : s.Idx → EReal) (h : s.ShapeCasts t) (hf : ∀ k, (0 : EReal) ≤ f k)
    (j : t.Idx) : (0 : EReal) ≤ shapeCast t f h j :=
  hf (Shape.reshapeEquiv h j)

/-- Every per-edge weight of the reference is non-negative: it is the specification's weight read at some index. -/
theorem edge_nonneg (x2 : (⟨S1600000x1, .f32⟩ : BufTy).Contents (Elt Ideal)) (x7 : (⟨S1x16, .f32⟩ : BufTy).Contents (Elt Ideal))
    (x8 : (⟨S16, .f32⟩ : BufTy).Contents (Elt Ideal)) (x9 : (⟨S16x1, .f32⟩ : BufTy).Contents (Elt Ideal))
    (x10 : (⟨S1, .f32⟩ : BufTy).Contents (Elt Ideal)) (e : S1600000.Idx) :
    (0 : EReal) ≤ val_main_v23 (F := Ideal) x2 x7 x8 x9 x10 e := by
  rw [← edge_eq x2 x7 x8 x9 x10 (by decide) (by decide) (by decide) (by decide) (by decide) (by decide)]
  exact shapeCast_nonneg _ _ (fun k => Cert.SpecFacts.edgeW_nonneg _ _ _ _ _ k) e

/-- Every node degree of the reference is at least 1: non-negative weights scattered onto zeros, plus the word of 1.0. -/
theorem deg_ge_one (x1 : (⟨S2x1600000, .i32⟩ : BufTy).Contents (Elt Ideal)) (x2 : (⟨S1600000x1, .f32⟩ : BufTy).Contents (Elt Ideal))
    (x7 : (⟨S1x16, .f32⟩ : BufTy).Contents (Elt Ideal)) (x8 : (⟨S16, .f32⟩ : BufTy).Contents (Elt Ideal))
    (x9 : (⟨S16x1, .f32⟩ : BufTy).Contents (Elt Ideal)) (x10 : (⟨S1, .f32⟩ : BufTy).Contents (Elt Ideal)) (i : S100000.Idx) :
    (1 : EReal) ≤ val_main_v29 (F := Ideal) x1 x2 x7 x8 x9 x10 i := by
  have h : (0 : EReal) ≤ val_main_v27 (F := Ideal) x1 x2 x7 x8 x9 x10 i := by
    unfold val_main_v27
    refine Cert.LibScatterAdd.scatterAdd_nonneg _ _ _ _ (fun k => ?_) (fun j => edge_nonneg x2 x7 x8 x9 x10 j) i
    rw [val_main_v25_apply, val_main_cst_3_apply, Ideal.ofBits_def, Cert.SpecFacts.ofBits_zero]
  rw [val_main_v29_apply, val_main_v28_apply, val_main_cst_4_apply, Ideal.ofBits_def, Cert.SpecFacts.ofBits_one,
    Ideal.addf_def]
  exact le_add_of_nonneg_left h

/-- The guard against a zero degree changes nothing: the maximum of the degrees with the splat guard word is the
    degrees. -/
theorem guard_eq (x1 : (⟨S2x1600000, .i32⟩ : BufTy).Contents (Elt Ideal)) (x2 : (⟨S1600000x1, .f32⟩ : BufTy).Contents (Elt Ideal))
    (x7 : (⟨S1x16, .f32⟩ : BufTy).Contents (Elt Ideal)) (x8 : (⟨S16, .f32⟩ : BufTy).Contents (Elt Ideal))
    (x9 : (⟨S16x1, .f32⟩ : BufTy).Contents (Elt Ideal)) (x10 : (⟨S1, .f32⟩ : BufTy).Contents (Elt Ideal)) :
    maximumf (val_main_v29 (F := Ideal) x1 x2 x7 x8 x9 x10)
        (broadcastInDim S100000 ![] Gen.bcast_S_S100000 (constant (F := Ideal) S_ .f32 0x0DA24260#32))
      = val_main_v29 (F := Ideal) x1 x2 x7 x8 x9 x10 := by
  funext i
  have hb : broadcastInDim S100000 ![] Gen.bcast_S_S100000 (constant (F := Ideal) S_ .f32 0x0DA24260#32) i
      = Ideal.ofBits .f32 0x0DA24260#32 :=
    (broadcastInDim_apply _ Gen.bcast_S_S100000 _ i (fun a => a.elim0) (fun a => a.elim0)).trans
      (constant_apply _ _)
  refine (maximumf_apply _ _ i).trans ?_
  rw [hb]
  exact Cert.SpecFacts.max_guard (deg_ge_one x1 x2 x7 x8 x9 x10 i)

end Cert.RefSide

end
-- ==== Proof.LibTypedRefCasts.lean ====
/-
  Three general facts about the contents of a typed buffer reference, for any signature and element values.

  A module-local function's operations are stated at the tensor type T of each value and moved to the buffer's own
  type along the equation "the buffer's type is T" (toBuf) and back (ofBuf).  Such a transport changes nothing:

  * ofBuf_toBuf: moved to the buffer's type and back is the identity;
  * toBuf_eq / ofBuf_eq: a moved value equals any value it is heterogeneously equal to before the move —
    so an equation through a transport is the equation without it.
-/
import Idealize.ShloMosaic.Lib.StableHlo

namespace Cert.Lib.TypedRefCasts

open Idealize.ShloMosaic Idealize.ShloMosaic.StableHlo

variable {sig : RefSig} {Val : EltTy → Type} {T : BufTy}

/-- Contents moved to the buffer's own type and back are the contents. -/
theorem ofBuf_toBuf (x : TRef sig T) (v : T.Contents Val) : x.ofBuf (x.toBuf v) = v := by
  obtain ⟨r, h, hd, hs⟩ := x
  subst h
  rfl

/-- Contents moved to the buffer's own type equal what they equal before the move. -/
theorem toBuf_eq (x : TRef sig T) (v : T.Contents Val) (w : x.ref.ty.Contents Val) (h : HEq v w) : x.toBuf v = w :=
  eq_of_heq ((cast_heq _ _).trans h)

/-- Contents moved back to the value's type equal what they equal before the move. -/
theorem ofBuf_eq (x : TRef sig T) (v : x.ref.ty.Contents Val) (w : T.Contents Val) (h : HEq v w) : x.ofBuf v = w :=
  eq_of_heq ((cast_heq _ _).trans h)

end Cert.Lib.TypedRefCasts
-- ==== Proof.KHost1.lean ====
/-
  The idealized kernel program's host chain, first part: from the launch memory through the per-edge weights (the first
  tiled stage) to the node degrees, their inverse square roots, and the per-edge norms.  Each named buffer of the
  program is identified, at the boundary where it is last written, with the reference's value of the same quantity
  (the reference's operations one at a time, `val_main_vN`): the weights by the stage's value and the law that the
  specification of the per-edge network is the reference's chain of two small products and a logistic; the degree, the
  comparison with zero and the gathers by being the same operations of equal operands; the inverse square root by the
  fact that every degree is at least 1, so that the kernel program's extra guard max(deg, 1e-30) is the degree itself.
-/
import proofs.«104486_j88356067213587_2_alg».proof.Proof.Gen.KernelIdeal.Frame
import proofs.«104486_j88356067213587_2_alg».proof.Proof.Gen.ReferenceIdeal.Read
import proofs.«104486_j88356067213587_2_alg».proof.Proof.Spec
import proofs.«104486_j88356067213587_2_alg».proof.Proof.Stage0
import proofs.«104486_j88356067213587_2_alg».proof.Proof.RefEdge
import proofs.«104486_j88356067213587_2_alg».proof.Proof.RefGuard
import proofs.«104486_j88356067213587_2_alg».proof.Proof.LibTypedRefCasts
import Idealize.ShloMosaic.Lib.StableHlo.Run

set_option maxRecDepth 16384

noncomputable section

namespace Cert.KernelIdeal.Host

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays -/

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)
abbrev a10 (c : Dev nD) := m ((c.tc : Thread nD τ).loc main_arg10)

/-! ## Before the first stage: the index rows and the reshaped operands -/

theorem w1_v1 (c : Dev nD) : W1 (F := Ideal) m ρ c (Proc.devRef .tc main_v1) = val_main_v1 (F := Ideal) (a1 m c) := by
  dsimp only [W1, hostOps0]; after_results; rfl
theorem w1_v3 (c : Dev nD) : W1 (F := Ideal) m ρ c (Proc.devRef .tc main_v3) = val_main_v3 (F := Ideal) (a1 m c) := by
  dsimp only [W1, hostOps0]; after_results; rfl
theorem w1_v5 (c : Dev nD) : W1 (F := Ideal) m ρ c (Proc.devRef .tc main_v5)
    = shapeCast S1x1600000 (shapeCast S1600000 (a2 m c) shapeCasts_S1600000x1_S1600000) shapeCasts_S1600000_S1x1600000 := by
  dsimp only [W1, hostOps0]; after_results; rfl
theorem w1_v6 (c : Dev nD) : W1 (F := Ideal) m ρ c (Proc.devRef .tc main_v6) = shapeCast S16x1 (a7 m c) shapeCasts_S1x16_S16x1 := by
  dsimp only [W1, hostOps0]; after_results; rfl
theorem w1_v7 (c : Dev nD) : W1 (F := Ideal) m ρ c (Proc.devRef .tc main_v7) = shapeCast S16x1 (a8 m c) shapeCasts_S16_S16x1 := by
  dsimp only [W1, hostOps0]; after_results; rfl
theorem w1_v8 (c : Dev nD) : W1 (F := Ideal) m ρ c (Proc.devRef .tc main_v8) = shapeCast S1x1 (a10 m c) shapeCasts_S1_S1x1 := by
  dsimp only [W1, hostOps0]; after_results; rfl
theorem w1_arg9 (c : Dev nD) : W1 (F := Ideal) m ρ c (Proc.devRef .tc main_arg9) = a9 m c := by
  dsimp only [W1, hostOps0]; after_results
theorem w1_arg0 (c : Dev nD) : W1 (F := Ideal) m ρ c (Proc.devRef .tc main_arg0) = a0 m c := by
  dsimp only [W1, hostOps0]; after_results
theorem w1_arg3 (c : Dev nD) : W1 (F := Ideal) m ρ c (Proc.devRef .tc main_arg3) = a3 m c := by
  dsimp only [W1, hostOps0]; after_results
theorem w1_arg4 (c : Dev nD) : W1 (F := Ideal) m ρ c (Proc.devRef .tc main_arg4) = a4 m c := by
  dsimp only [W1, hostOps0]; after_results
theorem w1_arg5 (c : Dev nD) : W1 (F := Ideal) m ρ c (Proc.devRef .tc main_arg5) = a5 m c := by
  dsimp only [W1, hostOps0]; after_results
theorem w1_arg6 (c : Dev nD) : W1 (F := Ideal) m ρ c (Proc.devRef .tc main_arg6) = a6 m c := by
  dsimp only [W1, hostOps0]; after_results

/-! ## The first stage: the per-edge weights -/

theorem w2_v9 (c : Dev nD) : W2 (F := Ideal) m ρ c (Proc.devRef .tc main_v9)
    = Cert.Spec.edgeW (shapeCast S1x1600000 (shapeCast S1600000 (a2 m c) shapeCasts_S1600000x1_S1600000) shapeCasts_S1600000_S1x1600000)
        (shapeCast S16x1 (a7 m c) shapeCasts_S1x16_S16x1) (shapeCast S16x1 (a8 m c) shapeCasts_S16_S16x1) (a9 m c)
        (shapeCast S1x1 (a10 m c) shapeCasts_S1_S1x1) := by
  refine ((W2_arr m ρ c 5).trans (Cert.KernelIdeal.Stage0.final0_5 (V1 m ρ) c)).trans ?_
  show Cert.Spec.edgeW (W1 m ρ c (Proc.devRef .tc main_v5)) (W1 m ρ c (Proc.devRef .tc main_v6)) (W1 m ρ c (Proc.devRef .tc main_v7))
      (W1 m ρ c (Proc.devRef .tc main_arg9)) (W1 m ρ c (Proc.devRef .tc main_v8)) = _
  rw [w1_v5, w1_v6, w1_v7, w1_v8, w1_arg9]

theorem w2_v1 (c : Dev nD) : W2 (F := Ideal) m ρ c (Proc.devRef .tc main_v1) = val_main_v1 (F := Ideal) (a1 m c) :=
  (W2_of_ne m ρ c main_v1 (by decide)).trans (w1_v1 m ρ c)
theorem w2_v3 (c : Dev nD) : W2 (F := Ideal) m ρ c (Proc.devRef .tc main_v3) = val_main_v3 (F := Ideal) (a1 m c) :=
  (W2_of_ne m ρ c main_v3 (by decide)).trans (w1_v3 m ρ c)
theorem w2_arg0 (c : Dev nD) : W2 (F := Ideal) m ρ c (Proc.devRef .tc main_arg0) = a0 m c :=
  (W2_of_ne m ρ c main_arg0 (by decide)).trans (w1_arg0 m ρ c)
theorem w2_arg3 (c : Dev nD) : W2 (F := Ideal) m ρ c (Proc.devRef .tc main_arg3) = a3 m c :=
  (W2_of_ne m ρ c main_arg3 (by decide)).trans (w1_arg3 m ρ c)
theorem w2_arg4 (c : Dev nD) : W2 (F := Ideal) m ρ c (Proc.devRef .tc main_arg4) = a4 m c :=
  (W2_of_ne m ρ c main_arg4 (by decide)).trans (w1_arg4 m ρ c)
theorem w2_arg5 (c : Dev nD) : W2 (F := Ideal) m ρ c (Proc.devRef .tc main_arg5) = a5 m c :=
  (W2_of_ne m ρ c main_arg5 (by decide)).trans (w1_arg5 m ρ c)
theorem w2_arg6 (c : Dev nD) : W2 (F := Ideal) m ρ c (Proc.devRef .tc main_arg6) = a6 m c :=
  (W2_of_ne m ρ c main_arg6 (by decide)).trans (w1_arg6 m ρ c)

/-! ## Degrees and the guarded inverse square root -/

/-- The reshaped weights are the reference's per-edge weight array. -/
theorem w3_v10 (c : Dev nD) : W3 (F := Ideal) m ρ c (Proc.devRef .tc main_v10)
    = val_main_v23 (F := Ideal) (a2 m c) (a7 m c) (a8 m c) (a9 m c) (a10 m c) := by
  dsimp only [W3, hostOps1]; after_results
  rw [w2_v9]
  exact Cert.RefSide.edge_eq _ _ _ _ _ _ _ _ _ _ _

/-- The degree as the program spells it, of any array equal to the reference's weights, is the reference's degree. -/
theorem deg_form (c : Dev nD) (X : FVec Ideal S1600000 .f32)
    (hX : X = val_main_v23 (F := Ideal) (a2 m c) (a7 m c) (a8 m c) (a9 m c) (a10 m c)) :
    addf (Host.scatterAdd scatter_S100000_S1600000x1_S1600000_n_0_0_1 (broadcastInDim S100000 ![] bcast_S_S100000 (constant S_ .f32 0x00000000#32))
        (broadcastInDim S1600000x1 ![0] bcast_S1600000_S1600000x1_0 (val_main_v3 (F := Ideal) (a1 m c))) X)
      (broadcastInDim S100000 ![] bcast_S_S100000 (constant S_ .f32 0x3F800000#32))
    = val_main_v29 (F := Ideal) (a1 m c) (a2 m c) (a7 m c) (a8 m c) (a9 m c) (a10 m c) := by
  subst hX; rfl

theorem w3_v15 (c : Dev nD) : W3 (F := Ideal) m ρ c (Proc.devRef .tc main_v15)
    = val_main_v29 (F := Ideal) (a1 m c) (a2 m c) (a7 m c) (a8 m c) (a9 m c) (a10 m c) := by
  dsimp only [W3, hostOps1]; after_results
  rw [w2_v9, w2_v3]
  exact deg_form m c _ (Cert.RefSide.edge_eq _ _ _ _ _ _ _ _ _ _ _)

theorem w3_v17 (c : Dev nD) : W3 (F := Ideal) m ρ c (Proc.devRef .tc main_v17)
    = val_main_v31 (F := Ideal) (a1 m c) (a2 m c) (a7 m c) (a8 m c) (a9 m c) (a10 m c) := by
  dsimp only [W3, hostOps1]; after_results
  rw [w2_v9, w2_v3]
  refine Eq.trans (congrArg (fun d => cmpf .ogt d (broadcastInDim S100000 ![] bcast_S_S100000 (constant S_ .f32 0x00000000#32)))
    (deg_form m c _ (Cert.RefSide.edge_eq _ _ _ _ _ _ _ _ _ _ _))) ?_
  rfl

/-- The guarded inverse square root is the reference's plain one: the guard never binds. -/
theorem w3_v20 (c : Dev nD) : W3 (F := Ideal) m ρ c (Proc.devRef .tc main_v20)
    = val_main_v32 (F := Ideal) (a1 m c) (a2 m c) (a7 m c) (a8 m c) (a9 m c) (a10 m c) := by
  dsimp only [W3, hostOps1]; after_results
  rw [w2_v9, w2_v3]
  refine Eq.trans (congrArg (fun d => Host.rsqrt (maximumf d (broadcastInDim S100000 ![] bcast_S_S100000 (constant S_ .f32 0x0DA24260#32))))
    (deg_form m c _ (Cert.RefSide.edge_eq _ _ _ _ _ _ _ _ _ _ _))) ?_
  exact congrArg Host.rsqrt (Cert.RefSide.guard_eq _ _ _ _ _ _)

theorem w3_cst3 (c : Dev nD) : W3 (F := Ideal) m ρ c (Proc.devRef .tc main_cst_3) = (constant (F := Ideal) S_ .f32 0x00000000#32 : FVec Ideal S_ .f32) := by
  dsimp only [W3, hostOps1]; after_results
theorem w3_v1 (c : Dev nD) : W3 (F := Ideal) m ρ c (Proc.devRef .tc main_v1) = val_main_v1 (F := Ideal) (a1 m c) := by
  dsimp only [W3, hostOps1]; after_results; exact w2_v1 m ρ c
theorem w3_v3 (c : Dev nD) : W3 (F := Ideal) m ρ c (Proc.devRef .tc main_v3) = val_main_v3 (F := Ideal) (a1 m c) := by
  dsimp only [W3, hostOps1]; after_results; exact w2_v3 m ρ c

/-! ## The selection: the inverse square root where the degree is positive, zero elsewhere -/

open Cert.Lib.TypedRefCasts in
/-- The outlined selection, read: of any comparison, any candidate and any scalar it returns the candidate where the
    comparison holds and the scalar elsewhere. -/
theorem where_form (U : Valuation τ sig (Elt Ideal)) (c17 : IVec S100000 1) (v20 : FVec Ideal S100000 .f32) (z : FVec Ideal S_ .f32)
    (h17 : U (Proc.devRef .tc main_v17) = c17) (h20 : U (Proc.devRef .tc main_v20) = v20) (h3 : U (Proc.devRef .tc main_cst_3) = z) :
    StableHlo.after (hostOps1_1 (F := Ideal)) U (Proc.devRef .tc main_v21) = select c17 v20 (broadcastInDim S100000 ![] bcast_S_S100000 z) := by
  dsimp only [hostOps1_1]
  after_results
  rw [h17, h20, h3]
  refine eq_of_heq ((cast_heq _ _).trans (heq_of_eq ?_))
  rw [ofBuf_toBuf, ofBuf_toBuf]
  have e17 : (TRef.of main_v17 : TRef sig ⟨S100000, .i1⟩).ofBuf (Val := Elt Ideal) c17 = c17 := ofBuf_eq _ _ _ HEq.rfl
  have e20 : (TRef.of main_v20 : TRef sig ⟨S100000, .f32⟩).ofBuf (Val := Elt Ideal) v20 = v20 := ofBuf_eq _ _ _ HEq.rfl
  have e3 : (TRef.of main_cst_3 : TRef sig ⟨S_, .f32⟩).ofBuf (Val := Elt Ideal) z = z := ofBuf_eq _ _ _ HEq.rfl
  rw [e17, e20, e3]
  rfl

theorem w4_v21 (c : Dev nD) : W4 (F := Ideal) m ρ c (Proc.devRef .tc main_v21)
    = val_main_v33 (F := Ideal) (a1 m c) (a2 m c) (a7 m c) (a8 m c) (a9 m c) (a10 m c) := by
  refine (where_form (W3 m ρ c) _ _ _ (w3_v17 m ρ c) (w3_v20 m ρ c) (w3_cst3 m ρ c)).trans ?_
  exact congrArg (select _ _) (rfl : _ = val_main_call1_v1 (F := Ideal))

theorem w4_v10 (c : Dev nD) : W4 (F := Ideal) m ρ c (Proc.devRef .tc main_v10)
    = val_main_v23 (F := Ideal) (a2 m c) (a7 m c) (a8 m c) (a9 m c) (a10 m c) := by
  have h := w3_v10 m ρ c
  dsimp only [W4, hostOps1_1]
  generalize W3 m ρ c = U at h ⊢
  after_results
  exact h
theorem w4_v1 (c : Dev nD) : W4 (F := Ideal) m ρ c (Proc.devRef .tc main_v1) = val_main_v1 (F := Ideal) (a1 m c) := by
  have h := w3_v1 m ρ c
  dsimp only [W4, hostOps1_1]
  generalize W3 m ρ c = U at h ⊢
  after_results
  exact h
theorem w4_v3 (c : Dev nD) : W4 (F := Ideal) m ρ c (Proc.devRef .tc main_v3) = val_main_v3 (F := Ideal) (a1 m c) := by
  have h := w3_v3 m ρ c
  dsimp only [W4, hostOps1_1]
  generalize W3 m ρ c = U at h ⊢
  after_results
  exact h

end Cert.KernelIdeal.Host

end
-- ==== Proof.Stage1.lean ====
/-
  The first matrix-product stage: on each of its twenty row blocks the tiled program multiplies a 5000 × 128 block of
  the left array by the whole 128 × 128 right array into a zero accumulator; both of its result arrays (the binary32
  one and its narrowing, which is the identity on extended reals) end holding the matrix product of the two whole arrays.
-/
import proofs.«104486_j88356067213587_2_alg».proof.Proof.Gen.KernelIdeal.Frame
import proofs.«104486_j88356067213587_2_alg».proof.Proof.Spec
import Idealize.ShloMosaic.Lib.Pipeline.Value
import Idealize.ShloMosaic.Lib.ValueIdx
import Idealize.ShloMosaic.PureOps.Ideal.Laws

noncomputable section

namespace Cert.KernelIdeal.Stage1

open Cert.KernelIdeal Cert.KernelIdeal.Gen Idealize.ShloMosaic Idealize.ShloMosaic.TcCoe Idealize.SL.Sem Idealize.ShloMosaic.ValueIdx
open Idealize.ShloMosaic.Pipeline (Dat)

/-! ## The block product at an index -/

/-- The left operand's row is the output's row. -/
theorem lhs_row (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction coordinate. -/
theorem lhs_col (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
/-- The right operand's row is the contraction coordinate. -/
theorem rhs_row (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
/-- The right operand's column is the output's column. -/
theorem rhs_col (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, entry (p, q): the sum over k of x(p, k) · w(k, q); the narrowing of the
    operands is the identity on extended reals. -/
theorem pay1_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- The narrowed product is the product. -/
theorem pay2_apply (x0 : Vec Ideal S5000x128 .f32) (x1 : Vec Ideal S128x128 .f32) (p : Fin 5000) (q : Fin 128) :
    k1_pay2 (F := Ideal) x0 x1 (ix2 p q) = ∑ k : Fin 128, x0 (ix2 p k) * x1 (ix2 k q) :=
  pay1_apply x0 x1 p q

/-! ## Where each block sits in its array -/

theorem zero_off : (![0, 0] : Fin 2 → Nat) = fun _ => 0 := funext fun a => by fin_cases a <;> rfl

/-- The grid has twenty points. -/
theorem point_lt (t : Fin cfg1.N) : t.val < 20 := lt_of_lt_of_eq t.isLt N_1

/-- The windows' index maps over the grid: the left array's and both results' blocks are row block t, the right array's
    the whole array. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row t·5000 + p of the arrays blocked by rows. -/
abbrev rowOf (t : Fin cfg1.N) (p : Fin 5000) : Fin 100000 := ⟨t.val * 5000 + p.val, by have := point_lt t; omega⟩

/-- Entry (p, k) of the left array's block at point t is entry (t·5000 + p, k) of the array. -/
theorem emb_left (t : Fin cfg1.N) (p : Fin 5000) (k : Fin 128) :
    ((cfg1.win 0).blk t).view.emb (ix2 p k) = ix2 (rowOf t p) k := by
  obtain ⟨e0, e1, -⟩ := block_index t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The right array's block at every point is the array. -/
theorem emb_right (t : Fin cfg1.N) (k : Fin 128) (q : Fin 128) :
    ((cfg1.win 1).blk t).view.emb (ix2 k q) = ix2 k q := by
  obtain ⟨-, -, e2, e3, -⟩ := block_index t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- Entry (p, q) of the first result's block at point t is entry (t·5000 + p, q) of the array. -/
theorem emb_out2 (t : Fin cfg1.N) (p : Fin 5000) (q : Fin 128) :
    ((cfg1.win 2).blk t).view.emb (ix2 p q) = ix2 (rowOf t p) q := by
  obtain ⟨-, -, -, -, e4, e5, -⟩ := block_index t
  funext a; apply Fin.ext
  match a with
  | ⟨0, _⟩ => show win1_2.index t (0 : Fin 2) * 5000 + 1 * p.val = t.val * 5000 + p.val; omega
  | ⟨1, _⟩ => show win1_2.index t (1 : Fin 2) * 128 + 1 * q.val = q.val; omega

/-- Entry (p, q) of the second result's block at point t is entry (t·5000 + p, q) of the array. -/
theorem emb_out3 (t : Fin cfg1.N) (p : Fin 5000) (q : Fin 128) :
    ((cfg1.win 3).blk t).view.emb (ix2 p q) = ix2 (rowOf t p) q := by
  obtain ⟨-, -, -, -, -, -, e6, e7⟩ := block_index t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- Entry (p, k) of the left array's block at point t is entry (t·5000 + p, k) of the array. -/
theorem left_block_apply (V : (c : Dev nD) → (b : Ref sig .tc) → Buf (Elt Ideal) ((c : Thread nD τ).loc b)) (c : Dev nD) (t : Fin cfg1.N) (p : Fin 5000) (k : Fin 128) :
    iblk1 V c 0 t (ix2 p k) = V c main_arg0 (ix2 (rowOf t p) k) := by
  show V c main_arg0 (((cfg1.win 0).blk t).view.emb (ix2 p k)) = _
  rw [emb_left]

/-- Entry (k, q) of the right array's block at any point is entry (k, q) of the array. -/
theorem right_block_apply (V : (c : Dev nD) → (b : Ref sig .tc) → Buf (Elt Ideal) ((c : Thread nD τ).loc b)) (c : Dev nD) (t : Fin cfg1.N) (k : Fin 128) (q : Fin 128) :
    iblk1 V c 1 t (ix2 k q) = V c main_arg3 (ix2 k q) := by
  show V c main_arg3 (((cfg1.win 1).blk t).view.emb (ix2 k q)) = _
  rw [emb_right]

/-- A 5000 × 128 block x that is rows r, r + 1, … of the array A, times a block w that is the whole array B: row p of
    the block product is row r + p of the product of the arrays. -/
theorem block_product (A : Cert.Spec.Arr2 100000 128) (B : Cert.Spec.Arr2 128 128)
    (x : Vec Ideal S5000x128 .f32) (w : Vec Ideal S128x128 .f32) (r : Fin 100000) (p : Fin 5000) (q : Fin 128)
    (hx : ∀ k : Fin 128, x (ix2 p k) = A (ix2 r k)) (hw : ∀ k : Fin 128, w (ix2 k q) = B (ix2 k q)) :
    ∑ k : Fin 128, x (ix2 p k) * w (ix2 k q) = Cert.Spec.mm A B (ix2 r q) := by
  show _ = ∑ k : Fin 128, A (ix2 r k) * B (ix2 k q)
  exact Finset.sum_congr rfl fun k _ => by rw [hx k, hw k]

/-! ## The first result (binary32) -/

/-- What point t writes back is block t of the product of the two whole arrays. -/
theorem flushed2_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.mm (M := 100000) (K := 128) (N := 128) (V c main_arg0) (V c main_arg3)) := by
  show (cfg1.win 2).cut (grid1.coords t) ((dat1 V c).after 2 t) = _
  rw [after1_2]
  unfold out1_2
  rw [View.canon_unit_zero zero_off]
  simp only [View.ld_unit_zero (S := S5000x128) zero_off, View.ld_unit_zero (S := S128x128) zero_off]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
      = Cert.Spec.mm (M := 100000) (K := 128) (N := 128) (V c main_arg0) (V c main_arg3) (((cfg1.win 2).blk t).view.emb (ix2 p q))
  rw [emb_out2]
  exact (pay1_apply _ _ p q).trans (block_product (V c main_arg0) (V c main_arg3) (iblk1 V c 0 t) (iblk1 V c 1 t) (rowOf t p) p q
    (fun k => left_block_apply V c t p k) (fun k => right_block_apply V c t k q))

/-- An index of the array is in point t's block iff each coordinate is in the block's range on its axis. -/
theorem mem_blk2 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v39_0).slice (win1_2.rect t)).set ↔ _
  rw [View.set_slice_whole, Rect.mem_set_unit]
  exact Iff.rfl

/-- Row r lies in the block of point r / 5000: the twenty row blocks tile the array. -/
theorem cover2 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < cfg1.N := lt_of_lt_of_eq (by omega : (i 0).val / 5000 < 20) N_1.symm
  obtain ⟨-, -, -, -, e4, e5, -⟩ := block_index ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk2]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    omega

/-- The first result array after the stage: the product of the two whole arrays. -/
theorem final1_2 (V : (c : Dev nD) → (b : Ref sig .tc) → Buf (Elt Ideal) ((c : Thread nD τ).loc b)) (c : Dev nD) :
    (dat1 (F := Ideal) V c).arrAt 2 cfg1.N = Cert.Spec.mm (V c main_arg0) (V c main_arg3) :=
  (dat1 V c).arrAt_eq_of_cover 2 _ (fun t _ => flushed2_eq V c t) cover2

/-! ## The second result (the narrowing of the first: the same extended reals) -/

/-- What point t writes back is block t of the product of the two whole arrays. -/
theorem flushed3_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.mm (M := 100000) (K := 128) (N := 128) (V c main_arg0) (V c main_arg3)) := by
  show (cfg1.win 3).cut (grid1.coords t) ((dat1 V c).after 3 t) = _
  rw [after1_3]
  unfold out1_3
  rw [View.canon_unit_zero zero_off]
  simp only [View.ld_unit_zero (S := S5000x128) zero_off, View.ld_unit_zero (S := S128x128) zero_off]
  funext j
  obtain ⟨p, q, rfl⟩ : ∃ (p : Fin 5000) (q : Fin 128), j = ix2 p q := ⟨j 0, j 1, eq_ix2 j⟩
  show k1_pay2 (F := Ideal) (iblk1 V c 0 t) (iblk1 V c 1 t) (ix2 p q)
      = Cert.Spec.mm (M := 100000) (K := 128) (N := 128) (V c main_arg0) (V c main_arg3) (((cfg1.win 3).blk t).view.emb (ix2 p q))
  rw [emb_out3]
  exact (pay2_apply _ _ p q).trans (block_product (V c main_arg0) (V c main_arg3) (iblk1 V c 0 t) (iblk1 V c 1 t) (rowOf t p) p q
    (fun k => left_block_apply V c t p k) (fun k => right_block_apply V c t k q))

/-- An index of the array is in point t's block iff each coordinate is in the block's range on its axis. -/
theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v39_1).slice (win1_3.rect t)).set ↔ _
  rw [View.set_slice_whole, Rect.mem_set_unit]
  exact Iff.rfl

/-- Row r lies in the block of point r / 5000: the twenty row blocks tile the array. -/
theorem cover3 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 5000 < cfg1.N := lt_of_lt_of_eq (by omega : (i 0).val / 5000 < 20) N_1.symm
  obtain ⟨-, -, -, -, -, -, e6, e7⟩ := block_index ⟨(i 0).val / 5000, ht⟩
  have e6' : win1_3.index ⟨(i 0).val / 5000, ht⟩ (0 : Fin 2) = (i 0).val / 5000 := e6
  refine ⟨⟨(i 0).val / 5000, ht⟩, flush1_3 _, ?_⟩
  rw [mem_blk3]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    omega

/-- The second result array after the stage: the product of the two whole arrays. -/
theorem final1_3 (V : (c : Dev nD) → (b : Ref sig .tc) → Buf (Elt Ideal) ((c : Thread nD τ).loc b)) (c : Dev nD) :
    (dat1 (F := Ideal) V c).arrAt 3 cfg1.N = Cert.Spec.mm (V c main_arg0) (V c main_arg3) :=
  (dat1 V c).arrAt_eq_of_cover 3 _ (fun t _ => flushed3_eq V c t) cover3

end Cert.KernelIdeal.Stage1

end
-- ==== Proof.Stage2.lean ====
/-
  The self-loop term of one graph-convolution layer, as the tiled stage computes it: every grid point scales its block
  of rows by the rows' column entries and adds the bias row, and the twenty row blocks tile the result array, which
  therefore ends holding d(r) · xw(r, q) + b(q) at every index.
-/
import proofs.«104486_j88356067213587_2_alg».proof.Proof.Gen.KernelIdeal.Frame
import proofs.«104486_j88356067213587_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage2

open Cert.KernelIdeal Cert.KernelIdeal.Gen Idealize.ShloMosaic Idealize.ShloMosaic.TcCoe Idealize.SL.Sem Idealize.ShloMosaic.ValueIdx
open Idealize.ShloMosaic.Pipeline (Dat)

/-- The offsets of a whole-block access, however the zeros are spelt. -/
theorem hz : (![0, 0] : Fin 2 → Nat) = fun _ => 0 := funext fun a => by fin_cases a <;> rfl

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at an index: the row's scale times the block's entry, plus the lane's bias. -/
theorem pay_apply (x0 : Vec Ideal S5000x128 .f32) (x1 : Vec Ideal S5000x1 .f32) (x2 : Vec Ideal S1x128 .f32)
    (p : Fin 5000) (q : Fin 128) :
    k2_pay1 x0 x1 x2 (ix2 p q) = x1 (ix2 p (0 : Fin 1)) * x0 (ix2 p q) + x2 (ix2 (0 : Fin 1) q) := by
  unfold k2_pay1
  simp only [shapeCast_self]
  rw [addf_apply, mulf_apply, broadcastTo_a1_ab_apply, broadcastTo_1b_ab_apply]

/-- The printed index maps, decided over the grid: the three row-blocked windows sit at block `(t, 0)`, the bias row
    at block `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block `t` of the self-loop term, entry by entry: the three input blocks at point `t` read the arrays at the rows
    the output's block covers (a block's array coordinate is its index times its size plus the coordinate inside). -/
theorem block_eq (X0 : Cert.Spec.Arr2 100000 128) (X1 : Cert.Spec.Arr2 100000 1) (X2 : Cert.Spec.Arr2 1 128)
    (t : Fin cfg2.N) (p : Fin 5000) (q : Fin 128) :
    X1 (((cfg2.win 1).blk t).view.emb (ix2 p (0 : Fin 1))) * X0 (((cfg2.win 0).blk t).view.emb (ix2 p q))
        + X2 (((cfg2.win 2).blk t).view.emb (ix2 (0 : Fin 1) q))
      = Cert.Spec.selfTerm X0 X1 X2 (((cfg2.win 3).blk t).view.emb (ix2 p q)) := by
  obtain ⟨e0, e1, e2, e3, e4, e5, e6, e7⟩ := idx_facts t
  unfold Cert.Spec.selfTerm
  have h0 : ((cfg2.win 0).blk t).view.emb (ix2 p q) = ((cfg2.win 3).blk t).view.emb (ix2 p q) := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  have h1 : ((cfg2.win 1).blk t).view.emb (ix2 p (0 : Fin 1))
      = ix2 (((cfg2.win 3).blk t).view.emb (ix2 p q) 0) (0 : Fin 1) := by
    funext a; apply Fin.ext
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  have h2 : ((cfg2.win 2).blk t).view.emb (ix2 (0 : Fin 1) q)
      = ix2 (0 : Fin 1) (((cfg2.win 3).blk t).view.emb (ix2 p q) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [h0, h1, h2]
  rfl

/-- WHAT POINT `t` WRITES BACK is block `t` of the self-loop term of the three arrays as the stage finds them. -/
theorem flushed_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (Cert.Spec.selfTerm (V c main_v39_0) (V c main_v40) (V c main_v41)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  refine (pay_apply _ _ _ p q).trans ?_
  exact block_eq (V c main_v39_0) (V c main_v40) (V c main_v41) t p q

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v42).slice (win2_3.rect t)).set ↔ _
  rw [View.set_slice_whole, Rect.mem_set_unit]
  exact Iff.rfl

/-- The twenty row blocks tile the array: row `r` is in the block of point `r / 5000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have ht : (i 0).val / 5000 < cfg2.N := by rw [show cfg2.N = 20 from N_2]; omega
  obtain ⟨e0, e1, e2, e3, e4, e5, e6, e7⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e7]; omega

/-- THE ARRAY after the stage: the self-loop term of the three arrays the stage reads, at every index. -/
theorem final2_3 (V : (c : Dev nD) → (b : Ref sig .tc) → Buf (Elt Ideal) ((c : Thread nD τ).loc b)) (c : Dev nD) :
    (dat2 (F := Ideal) V c).arrAt 3 cfg2.N = Cert.Spec.selfTerm (V c main_v39_0) (V c main_v40) (V c main_v41) :=
  (dat2 V c).arrAt_eq_of_cover 3 _ (fun t _ => flushed_eq V c t) cover

end Cert.KernelIdeal.Stage2

end
-- ==== Proof.RefMM.lean ====
/-
  The reference's two dense matrix products are the specification's matrix product: entry (r, q) of each is the sum
  over the contracted coordinate k of the left operand at (r, k) times the right operand at (k, q); for the second
  product the left operand is the rectifier max(·, +0.0) of the first layer's output.
-/
import proofs.«104486_j88356067213587_2_alg».proof.Proof.Gen.ReferenceIdeal.Read
import proofs.«104486_j88356067213587_2_alg».proof.Proof.Spec
import Idealize.ShloMosaic.Lib.ValueIdx

noncomputable section

namespace Cert.RefSide

open Cert.ReferenceIdeal Cert.ReferenceIdeal.Read Idealize.ShloMosaic Idealize.ShloMosaic.ValueIdx

/-- The first layer's product x·W₁: the reference's contraction reads the left operand at (r, k) and the right at
    (k, q), which are the specification's two index constructors. -/
theorem mm_v24 (x0 : FVec Ideal S100000x128 .f32) (x3 : FVec Ideal S128x128 .f32) :
    Cert.Spec.mm x0 x3 = val_main_v24 (F := Ideal) x0 x3 := by
  funext i
  rw [val_main_v24_apply]
  refine Finset.sum_congr rfl fun k _ => ?_
  have el : lidx_main_v24 i k = ix2 (i 0) k :=
    funext fun a => Fin.ext (by match a with | ⟨0, _⟩ => rfl | ⟨1, _⟩ => rfl)
  have er : ridx_main_v24 i k = ix2 k (i 1) :=
    funext fun a => Fin.ext (by match a with | ⟨0, _⟩ => rfl | ⟨1, _⟩ => rfl)
  rw [el, er]
  rfl

/-- The reference's rectifier of the first layer's output — the maximum with a splat of the zero word — is, at every
    index, max(h, +0.0): the splat reads the zero word everywhere. -/
theorem relu_v71 (x0 : (⟨S100000x128, .f32⟩ : BufTy).Contents (Elt Ideal)) (x1 : (⟨S2x1600000, .i32⟩ : BufTy).Contents (Elt Ideal))
    (x2 : (⟨S1600000x1, .f32⟩ : BufTy).Contents (Elt Ideal)) (x3 : (⟨S128x128, .f32⟩ : BufTy).Contents (Elt Ideal))
    (x4 : (⟨S128, .f32⟩ : BufTy).Contents (Elt Ideal))
    (x7 : (⟨S1x16, .f32⟩ : BufTy).Contents (Elt Ideal)) (x8 : (⟨S16, .f32⟩ : BufTy).Contents (Elt Ideal))
    (x9 : (⟨S16x1, .f32⟩ : BufTy).Contents (Elt Ideal)) (x10 : (⟨S1, .f32⟩ : BufTy).Contents (Elt Ideal))
    (j : S100000x128.Idx) :
    Cert.Spec.relu (val_main_v70 (F := Ideal) x0 x1 x2 x3 x4 x7 x8 x9 x10) j
      = val_main_v71 (F := Ideal) x0 x1 x2 x3 x4 x7 x8 x9 x10 j := by
  rw [val_main_v71_apply, val_main_call2_v0_apply, val_main_call2_cst_apply]
  rfl

/-- The second layer's product relu(h)·W₂: the left operand is the rectifier above, and the reference's contraction
    reads at the specification's index constructors. -/
theorem mm_v72 (x0 : (⟨S100000x128, .f32⟩ : BufTy).Contents (Elt Ideal)) (x1 : (⟨S2x1600000, .i32⟩ : BufTy).Contents (Elt Ideal))
    (x2 : (⟨S1600000x1, .f32⟩ : BufTy).Contents (Elt Ideal)) (x3 : (⟨S128x128, .f32⟩ : BufTy).Contents (Elt Ideal))
    (x4 : (⟨S128, .f32⟩ : BufTy).Contents (Elt Ideal))
    (x5 : (⟨S128x64, .f32⟩ : BufTy).Contents (Elt Ideal))
    (x7 : (⟨S1x16, .f32⟩ : BufTy).Contents (Elt Ideal)) (x8 : (⟨S16, .f32⟩ : BufTy).Contents (Elt Ideal))
    (x9 : (⟨S16x1, .f32⟩ : BufTy).Contents (Elt Ideal)) (x10 : (⟨S1, .f32⟩ : BufTy).Contents (Elt Ideal)) :
    Cert.Spec.mm (Cert.Spec.relu (val_main_v70 (F := Ideal) x0 x1 x2 x3 x4 x7 x8 x9 x10)) x5
      = val_main_v72 (F := Ideal) x0 x1 x2 x3 x4 x5 x7 x8 x9 x10 := by
  funext i
  rw [val_main_v72_apply]
  refine Finset.sum_congr rfl fun k _ => ?_
  have el : lidx_main_v72 i k = ix2 (i 0) k :=
    funext fun a => Fin.ext (by match a with | ⟨0, _⟩ => rfl | ⟨1, _⟩ => rfl)
  have er : ridx_main_v72 i k = ix2 k (i 1) :=
    funext fun a => Fin.ext (by match a with | ⟨0, _⟩ => rfl | ⟨1, _⟩ => rfl)
  rw [el, er]
  exact congrArg (· * x5 (ix2 k (i 1))) (relu_v71 x0 x1 x2 x3 x4 x7 x8 x9 x10 (ix2 (i 0) k))

end Cert.RefSide

end
-- ==== Proof.RefLayer.lean ====
/-
  One algebraic law of a graph-convolution layer on the extended reals: accumulating the edge messages ONTO the
  self-loop term d(r) · xw(r, q) + b(q) gives, entry by entry, what accumulating them onto zeros and then adding the
  self-loop product and the bias gives.  Only commutativity and associativity of + on the extended reals are used: no
  distributivity, no finiteness.  Proved once over any extents and any scatter dimension numbers, then read at the two
  layers' literal shapes.
-/
import proofs.«104486_j88356067213587_2_alg».proof.Proof.Gen.ReferenceIdeal.Read
import proofs.«104486_j88356067213587_2_alg».proof.Proof.Spec
import proofs.«104486_j88356067213587_2_alg».proof.Proof.LibScatterAdd
import Idealize.ShloMosaic.Lib.Pipeline.Value
import Idealize.ShloMosaic.Lib.ValueIdx
import Idealize.ShloMosaic.Lib.ValueLayout

noncomputable section

open Cert.ReferenceIdeal Cert.ReferenceIdeal.Gen Cert.ReferenceIdeal.Read Idealize.ShloMosaic Idealize.ShloMosaic.ValueIdx

namespace Cert.RefSide

/-! ## Layout operations at an index -/

/-- A vector `[a]` viewed as a column `[a, 1]` reads, at `(p, u)`, its entry `p`. -/
theorem layer_cast_col {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector `[a]` broadcast along axis 0 into a column `[a, 1]` reads, at `(p, u)`, its entry `p`. -/
theorem layer_bcast_vec_col {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) :=
  broadcastInDim_apply _ h x (ix2 p u) (ix1 p) fun ax => match ax with
    | ⟨0, _⟩ => by
      show p.val = if a = 1 then 0 else p.val
      split
      · have := p.isLt; omega
      · rfl

/-- A vector `[b]` broadcast along axis 1 into a row `[1, b]` reads, at `(u, q)`, its entry `q`. -/
theorem layer_bcast_vec_row {α : Type} {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) :=
  broadcastInDim_apply _ h x (ix2 u q) (ix1 q) fun ax => match ax with
    | ⟨0, _⟩ => by
      show q.val = if b = 1 then 0 else q.val
      split
      · have := q.isLt; omega
      · rfl

/-- A column `[a, 1]` broadcast over `[a, b]` reads, at `(p, q)`, the column's entry `p`. -/
theorem layer_bcast_col {α : Type} {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h x (ix2 p q) = x (ix2 p (0 : Fin 1)) :=
  broadcastInDim_apply _ h x (ix2 p q) (ix2 p (0 : Fin 1)) fun ax => match ax with
    | ⟨0, _⟩ => by
      show p.val = if a = 1 then 0 else p.val
      split
      · have := p.isLt; omega
      · rfl
    | ⟨1, _⟩ => by
      show 0 = if (1 : ℕ) = 1 then 0 else q.val
      rw [if_pos rfl]

/-- A row `[1, b]` broadcast over `[a, b]` reads, at `(p, q)`, the row's entry `q`. -/
theorem layer_bcast_row {α : Type} {a b : ℕ} (x : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h x (ix2 p q) = x (ix2 (0 : Fin 1) q) :=
  broadcastInDim_apply _ h x (ix2 p q) (ix2 (0 : Fin 1) q) fun ax => match ax with
    | ⟨0, _⟩ => by
      show 0 = if (1 : ℕ) = 1 then 0 else p.val
      rw [if_pos rfl]
    | ⟨1, _⟩ => by
      show q.val = if b = 1 then 0 else q.val
      split
      · have := q.isLt; omega
      · rfl

/-! ## The law, over any extents -/

/-- Accumulating updates onto the self-loop term d(p) · xw(p, q) + b(q) is accumulating them onto an all-zero array
    `z`, then adding the product d(p) · xw(p, q), then the bias b(q): with Z the accumulated updates at (p, q),
    (d · xw + b) + Z = (Z + d · xw) + b. -/
theorem layer_general {M D : ℕ} {si su : Shape} {w : ℕ} (dS : ScatterDims ⟨2, ![M, D]⟩ si su)
    (xw : FVec Ideal ⟨2, ![M, D]⟩ .f32) (dsq : FVec Ideal ⟨1, ![M]⟩ .f32) (b : FVec Ideal ⟨1, ![D]⟩ .f32)
    (idx : IVec si w) (u : FVec Ideal su .f32) (z : FVec Ideal ⟨2, ![M, D]⟩ .f32) (hz : ∀ i, z i = (0 : EReal))
    (h : (⟨1, ![M]⟩ : Shape).ShapeCasts ⟨2, ![M, 1]⟩) (h' : (⟨1, ![D]⟩ : Shape).ShapeCasts ⟨2, ![1, D]⟩)
    (g1 : (⟨2, ![M, 1]⟩ : Shape).BroadcastsInDim ⟨2, ![M, D]⟩ (![0, 1] : Fin 2 → Fin 2))
    (g2 : (⟨1, ![M]⟩ : Shape).BroadcastsInDim ⟨2, ![M, 1]⟩ (![0] : Fin 1 → Fin 2))
    (g3 : (⟨2, ![1, D]⟩ : Shape).BroadcastsInDim ⟨2, ![M, D]⟩ (![0, 1] : Fin 2 → Fin 2))
    (g4 : (⟨1, ![D]⟩ : Shape).BroadcastsInDim ⟨2, ![1, D]⟩ (![1] : Fin 1 → Fin 2)) :
    Host.scatterAdd (F := Ideal) dS
        (Cert.Spec.selfTerm xw (shapeCast ⟨2, ![M, 1]⟩ dsq h) (shapeCast ⟨2, ![1, D]⟩ b h')) idx u
      = addf (addf (Host.scatterAdd (F := Ideal) dS z idx u)
                   (mulf (broadcastInDim ⟨2, ![M, D]⟩ ![0, 1] g1 (broadcastInDim ⟨2, ![M, 1]⟩ ![0] g2 dsq)) xw))
             (broadcastInDim ⟨2, ![M, D]⟩ ![0, 1] g3 (broadcastInDim ⟨2, ![1, D]⟩ ![1] g4 b)) := by
  funext i
  obtain ⟨p, q, rfl⟩ : ∃ (p : Fin M) (q : Fin D), i = ix2 p q := ⟨i 0, i 1, eq_ix2 i⟩
  refine (Cert.LibScatterAdd.scatterAdd_seed dS _ z idx u hz (ix2 p q)).trans ?_
  show (shapeCast ⟨2, ![M, 1]⟩ dsq h (ix2 p (0 : Fin 1)) * xw (ix2 p q) + shapeCast ⟨2, ![1, D]⟩ b h' (ix2 (0 : Fin 1) q))
        + Host.scatterAdd (F := Ideal) dS z idx u (ix2 p q)
      = (Host.scatterAdd (F := Ideal) dS z idx u (ix2 p q)
          + broadcastInDim ⟨2, ![M, D]⟩ ![0, 1] g1 (broadcastInDim ⟨2, ![M, 1]⟩ ![0] g2 dsq) (ix2 p q) * xw (ix2 p q))
        + broadcastInDim ⟨2, ![M, D]⟩ ![0, 1] g3 (broadcastInDim ⟨2, ![1, D]⟩ ![1] g4 b) (ix2 p q)
  rw [layer_cast_col dsq h, shapeCast_a_1a_apply b h', layer_bcast_col _ g1, layer_bcast_vec_col dsq g2,
    layer_bcast_row _ g3, layer_bcast_vec_row b g4]
  exact (add_comm _ _).trans (add_assoc _ _ _).symm

/-! ## The two layers -/

/-- The word of +0.0 denotes 0. -/
theorem layer_zero_word : Ideal.ofBits .f32 0x00000000#32 = (0 : EReal) := by
  simp [Ideal.ofBits, Ideal.ieee]

/-- The first layer's all-zero seed is zero at every index. -/
theorem layer_seed128_zero (i : S100000x128.Idx) : (val_main_v60 (F := Ideal) i : EReal) = 0 := by
  rw [val_main_v60_apply, val_main_cst_12_apply]
  exact (Ideal.ofBits_def _).trans layer_zero_word

/-- The second layer's all-zero seed is zero at every index. -/
theorem layer_seed64_zero (i : S100000x64.Idx) : (val_main_v108 (F := Ideal) i : EReal) = 0 := by
  rw [val_main_v108_apply, val_main_cst_23_apply]
  exact (Ideal.ofBits_def _).trans layer_zero_word

/-- The first layer (width 128): the edge messages accumulated onto the self-loop term are the edge messages
    accumulated onto zeros, plus the self-loop product, plus the bias. -/
theorem layer128 (xw : FVec Ideal S100000x128 .f32) (dsq : FVec Ideal S100000 .f32) (b : FVec Ideal S128 .f32)
    (idx : IVec S1600000x1 32) (u : FVec Ideal S1600000x128 .f32)
    (h : S100000.ShapeCasts S100000x1) (h' : S128.ShapeCasts S1x128) :
    Host.scatterAdd (F := Ideal) scatter_S100000x128_S1600000x1_S1600000x128_1_0_0_1
        (Cert.Spec.selfTerm xw (shapeCast S100000x1 dsq h) (shapeCast S1x128 b h')) idx u
      = addf (addf (Host.scatterAdd (F := Ideal) scatter_S100000x128_S1600000x1_S1600000x128_1_0_0_1 (val_main_v60 (F := Ideal)) idx u)
                   (mulf (broadcastInDim S100000x128 ![0, 1] bcast_S100000x1_S100000x128_0_1
                      (broadcastInDim S100000x1 ![0] bcast_S100000_S100000x1_0 dsq)) xw))
             (broadcastInDim S100000x128 ![0, 1] bcast_S1x128_S100000x128_0_1 (broadcastInDim S1x128 ![1] bcast_S128_S1x128_1 b)) :=
  layer_general scatter_S100000x128_S1600000x1_S1600000x128_1_0_0_1 xw dsq b idx u (val_main_v60 (F := Ideal))
    layer_seed128_zero h h' bcast_S100000x1_S100000x128_0_1 bcast_S100000_S100000x1_0 bcast_S1x128_S100000x128_0_1
    bcast_S128_S1x128_1

/-- The second layer (width 64): the same law. -/
theorem layer64 (xw : FVec Ideal S100000x64 .f32) (dsq : FVec Ideal S100000 .f32) (b : FVec Ideal S64 .f32)
    (idx : IVec S1600000x1 32) (u : FVec Ideal S1600000x64 .f32)
    (h : S100000.ShapeCasts S100000x1) (h' : S64.ShapeCasts S1x64) :
    Host.scatterAdd (F := Ideal) scatter_S100000x64_S1600000x1_S1600000x64_1_0_0_1
        (Cert.Spec.selfTerm xw (shapeCast S100000x1 dsq h) (shapeCast S1x64 b h')) idx u
      = addf (addf (Host.scatterAdd (F := Ideal) scatter_S100000x64_S1600000x1_S1600000x64_1_0_0_1 (val_main_v108 (F := Ideal)) idx u)
                   (mulf (broadcastInDim S100000x64 ![0, 1] bcast_S100000x1_S100000x64_0_1
                      (broadcastInDim S100000x1 ![0] bcast_S100000_S100000x1_0 dsq)) xw))
             (broadcastInDim S100000x64 ![0, 1] bcast_S1x64_S100000x64_0_1 (broadcastInDim S1x64 ![1] bcast_S64_S1x64_1 b)) :=
  layer_general scatter_S100000x64_S1600000x1_S1600000x64_1_0_0_1 xw dsq b idx u (val_main_v108 (F := Ideal))
    layer_seed64_zero h h' bcast_S100000x1_S100000x64_0_1 bcast_S100000_S100000x1_0 bcast_S1x64_S100000x64_0_1
    bcast_S64_S1x64_1

end Cert.RefSide

end
-- ==== Proof.KHost2.lean ====
/-
  The idealized kernel program's host chain, second part: the squared inverse square root of the degree and the
  per-edge norm — the same gathers and products as the reference's, of operands already identified with the
  reference's —, then the first graph-convolution layer: the dense product (second tiled stage), the self-loop term
  (third tiled stage), and the messages scattered onto it, which is the reference's scatter onto zeros plus the
  self-loop product plus the bias because addition of extended reals is commutative and associative.  The destination
  ids are non-negative (the stated domain), so wrapping negative ids, which the kernel program's scatter does and the
  reference's segment sum does not, changes nothing.
-/
import proofs.«104486_j88356067213587_2_alg».proof.Proof.KHost1
import proofs.«104486_j88356067213587_2_alg».proof.Proof.Stage1
import proofs.«104486_j88356067213587_2_alg».proof.Proof.Stage2
import proofs.«104486_j88356067213587_2_alg».proof.Proof.RefMM
import proofs.«104486_j88356067213587_2_alg».proof.Proof.RefLayer

set_option maxRecDepth 16384

noncomputable section

namespace Cert.KernelIdeal.Host

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The squared inverse square root and the per-edge norm -/

/-- The stretch after the selection, read at the squared scale: of any contents of the selection's buffer. -/
theorem dsq_form (U : Valuation τ sig (Elt Ideal)) (dis : FVec Ideal S100000 .f32) (h21 : U (Proc.devRef .tc main_v21) = dis) :
    StableHlo.after (hostOps1_2 (F := Ideal)) U (Proc.devRef .tc main_v22) = mulf dis dis := by
  dsimp only [hostOps1_2]; after_results; rw [h21]

set_option maxHeartbeats 4000000 in
/-- The same stretch read at the per-edge norm: the scale gathered at the source ids, times the weight, times the scale
    gathered at the destination ids (negative ids wrapped, as array indexing does). -/
theorem norm_form (U : Valuation τ sig (Elt Ideal)) (dis : FVec Ideal S100000 .f32) (ew : FVec Ideal S1600000 .f32) (i1 i3 : IVec S1600000 32)
    (h21 : U (Proc.devRef .tc main_v21) = dis) (h10 : U (Proc.devRef .tc main_v10) = ew)
    (h1 : U (Proc.devRef .tc main_v1) = i1) (h3 : U (Proc.devRef .tc main_v3) = i3) :
    StableHlo.after (hostOps1_2 (F := Ideal)) U (Proc.devRef .tc main_v38)
      = mulf (mulf (Host.gather gather_S100000_S1600000x1_S1600000_n_0_n_n_0_1_1 dis (broadcastInDim S1600000x1 ![0] bcast_S1600000_S1600000x1_0 (select (cmpi .slt i1 (broadcastInDim S1600000 ![] bcast_S_S1600000 (constantI S_ 32 0#32))) (addi i1 (broadcastInDim S1600000 ![] bcast_S_S1600000 (constantI S_ 32 100000#32))) i1))) ew)
          (Host.gather gather_S100000_S1600000x1_S1600000_n_0_n_n_0_1_1 dis (broadcastInDim S1600000x1 ![0] bcast_S1600000_S1600000x1_0 (select (cmpi .slt i3 (broadcastInDim S1600000 ![] bcast_S_S1600000 (constantI S_ 32 0#32))) (addi i3 (broadcastInDim S1600000 ![] bcast_S_S1600000 (constantI S_ 32 100000#32))) i3))) := by
  dsimp only [hostOps1_2]; after_results_simp; rw [h21, h10, h1, h3]

theorem w5_v22 (c : Dev nD) : W5 (F := Ideal) m ρ c (Proc.devRef .tc main_v22)
    = val_main_v63 (F := Ideal) (a1 m c) (a2 m c) (a7 m c) (a8 m c) (a9 m c) (a10 m c) :=
  (dsq_form (W4 m ρ c) _ (w4_v21 m ρ c)).trans rfl

theorem w5_v38 (c : Dev nD) : W5 (F := Ideal) m ρ c (Proc.devRef .tc main_v38)
    = val_main_v49 (F := Ideal) (a1 m c) (a2 m c) (a7 m c) (a8 m c) (a9 m c) (a10 m c) := by
  refine (norm_form (W4 m ρ c) _ _ _ _ (w4_v21 m ρ c) (w4_v10 m ρ c) (w4_v1 m ρ c) (w4_v3 m ρ c)).trans ?_
  unfold val_main_v49 val_main_v41 val_main_v48 val_main_v40 val_main_v47 val_main_v39 val_main_v46 val_main_v38
  rfl

/-! ## Layer one -/

theorem w5_v1 (c : Dev nD) : W5 (F := Ideal) m ρ c (Proc.devRef .tc main_v1) = val_main_v1 (F := Ideal) (a1 m c) := by
  have h := w4_v1 m ρ c
  dsimp only [W5, hostOps1_2]
  generalize W4 m ρ c = U at h ⊢
  after_results
  exact h
theorem w5_v3 (c : Dev nD) : W5 (F := Ideal) m ρ c (Proc.devRef .tc main_v3) = val_main_v3 (F := Ideal) (a1 m c) := by
  have h := w4_v3 m ρ c
  dsimp only [W5, hostOps1_2]
  generalize W4 m ρ c = U at h ⊢
  after_results
  exact h
theorem w5_arg0 (c : Dev nD) : W5 (F := Ideal) m ρ c (Proc.devRef .tc main_arg0) = a0 m c := by
  dsimp only [W5, W4, W3, hostOps1_2, hostOps1_1, hostOps1]; after_results; exact w2_arg0 m ρ c
theorem w5_arg3 (c : Dev nD) : W5 (F := Ideal) m ρ c (Proc.devRef .tc main_arg3) = a3 m c := by
  dsimp only [W5, W4, W3, hostOps1_2, hostOps1_1, hostOps1]; after_results; exact w2_arg3 m ρ c
theorem w5_arg4 (c : Dev nD) : W5 (F := Ideal) m ρ c (Proc.devRef .tc main_arg4) = a4 m c := by
  dsimp only [W5, W4, W3, hostOps1_2, hostOps1_1, hostOps1]; after_results; exact w2_arg4 m ρ c
theorem w5_arg5 (c : Dev nD) : W5 (F := Ideal) m ρ c (Proc.devRef .tc main_arg5) = a5 m c := by
  dsimp only [W5, W4, W3, hostOps1_2, hostOps1_1, hostOps1]; after_results; exact w2_arg5 m ρ c
theorem w5_arg6 (c : Dev nD) : W5 (F := Ideal) m ρ c (Proc.devRef .tc main_arg6) = a6 m c := by
  dsimp only [W5, W4, W3, hostOps1_2, hostOps1_1, hostOps1]; after_results; exact w2_arg6 m ρ c

theorem w6_v39_0 (c : Dev nD) : W6 (F := Ideal) m ρ c (Proc.devRef .tc main_v39_0) = val_main_v24 (F := Ideal) (a0 m c) (a3 m c) := by
  refine ((W6_arr m ρ c 2).trans (Cert.KernelIdeal.Stage1.final1_2 (V5 m ρ) c)).trans ?_
  show Cert.Spec.mm (W5 m ρ c (Proc.devRef .tc main_arg0)) (W5 m ρ c (Proc.devRef .tc main_arg3)) = _
  rw [w5_arg0, w5_arg3]
  exact Cert.RefSide.mm_v24 _ _
theorem w6_v39_1 (c : Dev nD) : (W6 (F := Ideal) m ρ c (Proc.devRef .tc main_v39_1) : FVec Ideal S100000x128 .bf16) = val_main_v24 (F := Ideal) (a0 m c) (a3 m c) := by
  refine ((W6_arr m ρ c 3).trans (Cert.KernelIdeal.Stage1.final1_3 (V5 m ρ) c)).trans ?_
  show Cert.Spec.mm (W5 m ρ c (Proc.devRef .tc main_arg0)) (W5 m ρ c (Proc.devRef .tc main_arg3)) = _
  rw [w5_arg0, w5_arg3]
  exact Cert.RefSide.mm_v24 _ _
theorem w6_v22 (c : Dev nD) : W6 (F := Ideal) m ρ c (Proc.devRef .tc main_v22) = val_main_v63 (F := Ideal) (a1 m c) (a2 m c) (a7 m c) (a8 m c) (a9 m c) (a10 m c) :=
  (W6_of_ne m ρ c main_v22 (by decide)).trans (w5_v22 m ρ c)
theorem w6_v38 (c : Dev nD) : W6 (F := Ideal) m ρ c (Proc.devRef .tc main_v38) = val_main_v49 (F := Ideal) (a1 m c) (a2 m c) (a7 m c) (a8 m c) (a9 m c) (a10 m c) :=
  (W6_of_ne m ρ c main_v38 (by decide)).trans (w5_v38 m ρ c)
theorem w6_v1 (c : Dev nD) : W6 (F := Ideal) m ρ c (Proc.devRef .tc main_v1) = val_main_v1 (F := Ideal) (a1 m c) :=
  (W6_of_ne m ρ c main_v1 (by decide)).trans (w5_v1 m ρ c)
theorem w6_v3 (c : Dev nD) : W6 (F := Ideal) m ρ c (Proc.devRef .tc main_v3) = val_main_v3 (F := Ideal) (a1 m c) :=
  (W6_of_ne m ρ c main_v3 (by decide)).trans (w5_v3 m ρ c)
theorem w6_arg4 (c : Dev nD) : W6 (F := Ideal) m ρ c (Proc.devRef .tc main_arg4) = a4 m c :=
  (W6_of_ne m ρ c main_arg4 (by decide)).trans (w5_arg4 m ρ c)
theorem w6_arg5 (c : Dev nD) : W6 (F := Ideal) m ρ c (Proc.devRef .tc main_arg5) = a5 m c :=
  (W6_of_ne m ρ c main_arg5 (by decide)).trans (w5_arg5 m ρ c)
theorem w6_arg6 (c : Dev nD) : W6 (F := Ideal) m ρ c (Proc.devRef .tc main_arg6) = a6 m c :=
  (W6_of_ne m ρ c main_arg6 (by decide)).trans (w5_arg6 m ρ c)

theorem w7_v39_0 (c : Dev nD) : W7 (F := Ideal) m ρ c (Proc.devRef .tc main_v39_0) = val_main_v24 (F := Ideal) (a0 m c) (a3 m c) := by
  dsimp only [W7, hostOps2]; after_results; exact w6_v39_0 m ρ c
theorem w7_v40 (c : Dev nD) : W7 (F := Ideal) m ρ c (Proc.devRef .tc main_v40)
    = shapeCast S100000x1 (val_main_v63 (F := Ideal) (a1 m c) (a2 m c) (a7 m c) (a8 m c) (a9 m c) (a10 m c)) shapeCasts_S100000_S100000x1 := by
  dsimp only [W7, hostOps2]; after_results; rw [w6_v22]; rfl
theorem w7_v41 (c : Dev nD) : W7 (F := Ideal) m ρ c (Proc.devRef .tc main_v41) = shapeCast S1x128 (a4 m c) shapeCasts_S128_S1x128 := by
  dsimp only [W7, hostOps2]; after_results; rw [w6_arg4]; rfl
theorem w7_v22 (c : Dev nD) : W7 (F := Ideal) m ρ c (Proc.devRef .tc main_v22) = val_main_v63 (F := Ideal) (a1 m c) (a2 m c) (a7 m c) (a8 m c) (a9 m c) (a10 m c) := by
  dsimp only [W7, hostOps2]; after_results; exact w6_v22 m ρ c
theorem w7_v38 (c : Dev nD) : W7 (F := Ideal) m ρ c (Proc.devRef .tc main_v38) = val_main_v49 (F := Ideal) (a1 m c) (a2 m c) (a7 m c) (a8 m c) (a9 m c) (a10 m c) := by
  dsimp only [W7, hostOps2]; after_results; exact w6_v38 m ρ c
theorem w7_v1 (c : Dev nD) : W7 (F := Ideal) m ρ c (Proc.devRef .tc main_v1) = val_main_v1 (F := Ideal) (a1 m c) := by
  dsimp only [W7, hostOps2]; after_results; exact w6_v1 m ρ c
theorem w7_v3 (c : Dev nD) : W7 (F := Ideal) m ρ c (Proc.devRef .tc main_v3) = val_main_v3 (F := Ideal) (a1 m c) := by
  dsimp only [W7, hostOps2]; after_results; exact w6_v3 m ρ c
theorem w7_arg5 (c : Dev nD) : W7 (F := Ideal) m ρ c (Proc.devRef .tc main_arg5) = a5 m c := by
  dsimp only [W7, hostOps2]; after_results; exact w6_arg5 m ρ c
theorem w7_arg6 (c : Dev nD) : W7 (F := Ideal) m ρ c (Proc.devRef .tc main_arg6) = a6 m c := by
  dsimp only [W7, hostOps2]; after_results; exact w6_arg6 m ρ c

theorem w7_v39_1 (c : Dev nD) : (W7 (F := Ideal) m ρ c (Proc.devRef .tc main_v39_1) : FVec Ideal S100000x128 .bf16) = val_main_v24 (F := Ideal) (a0 m c) (a3 m c) := by
  dsimp only [W7, hostOps2]; after_results; exact w6_v39_1 m ρ c

theorem w8_v42 (c : Dev nD) : W8 (F := Ideal) m ρ c (Proc.devRef .tc main_v42)
    = Cert.Spec.selfTerm (val_main_v24 (F := Ideal) (a0 m c) (a3 m c))
        (shapeCast S100000x1 (val_main_v63 (F := Ideal) (a1 m c) (a2 m c) (a7 m c) (a8 m c) (a9 m c) (a10 m c)) shapeCasts_S100000_S100000x1)
        (shapeCast S1x128 (a4 m c) shapeCasts_S128_S1x128) := by
  refine ((W8_arr m ρ c 3).trans (Cert.KernelIdeal.Stage2.final2_3 (V7 m ρ) c)).trans ?_
  show Cert.Spec.selfTerm (W7 m ρ c (Proc.devRef .tc main_v39_0)) (W7 m ρ c (Proc.devRef .tc main_v40)) (W7 m ρ c (Proc.devRef .tc main_v41)) = _
  rw [w7_v39_0, w7_v40, w7_v41]
theorem w8_v22 (c : Dev nD) : W8 (F := Ideal) m ρ c (Proc.devRef .tc main_v22) = val_main_v63 (F := Ideal) (a1 m c) (a2 m c) (a7 m c) (a8 m c) (a9 m c) (a10 m c) :=
  (W8_of_ne m ρ c main_v22 (by decide)).trans (w7_v22 m ρ c)
theorem w8_v38 (c : Dev nD) : W8 (F := Ideal) m ρ c (Proc.devRef .tc main_v38) = val_main_v49 (F := Ideal) (a1 m c) (a2 m c) (a7 m c) (a8 m c) (a9 m c) (a10 m c) :=
  (W8_of_ne m ρ c main_v38 (by decide)).trans (w7_v38 m ρ c)
theorem w8_v1 (c : Dev nD) : W8 (F := Ideal) m ρ c (Proc.devRef .tc main_v1) = val_main_v1 (F := Ideal) (a1 m c) :=
  (W8_of_ne m ρ c main_v1 (by decide)).trans (w7_v1 m ρ c)
theorem w8_v3 (c : Dev nD) : W8 (F := Ideal) m ρ c (Proc.devRef .tc main_v3) = val_main_v3 (F := Ideal) (a1 m c) :=
  (W8_of_ne m ρ c main_v3 (by decide)).trans (w7_v3 m ρ c)
theorem w8_arg5 (c : Dev nD) : W8 (F := Ideal) m ρ c (Proc.devRef .tc main_arg5) = a5 m c :=
  (W8_of_ne m ρ c main_arg5 (by decide)).trans (w7_arg5 m ρ c)
theorem w8_arg6 (c : Dev nD) : W8 (F := Ideal) m ρ c (Proc.devRef .tc main_arg6) = a6 m c :=
  (W8_of_ne m ρ c main_arg6 (by decide)).trans (w7_arg6 m ρ c)

theorem w8_v39_1 (c : Dev nD) : (W8 (F := Ideal) m ρ c (Proc.devRef .tc main_v39_1) : FVec Ideal S100000x128 .bf16) = val_main_v24 (F := Ideal) (a0 m c) (a3 m c) :=
  (W8_of_ne m ρ c main_v39_1 (by decide)).trans (w7_v39_1 m ρ c)

set_option maxHeartbeats 4000000 in
/-- The stretch after the third stage, read at the layer's output: the messages — the norm times the gathered rows of
    the product's copy — scattered onto the stage's array at the (wrapped) destination ids. -/
theorem layer1_form (U : Valuation τ sig (Elt Ideal)) (seed : FVec Ideal S100000x128 .f32) (norm : FVec Ideal S1600000 .f32)
    (i1 i3 : IVec S1600000 32) (xwb : FVec Ideal S100000x128 .bf16)
    (h42 : U (Proc.devRef .tc main_v42) = seed) (h38 : U (Proc.devRef .tc main_v38) = norm)
    (h1 : U (Proc.devRef .tc main_v1) = i1) (h3 : U (Proc.devRef .tc main_v3) = i3) (h39 : U (Proc.devRef .tc main_v39_1) = xwb) :
    StableHlo.after (hostOps3 (F := Ideal)) U (Proc.devRef .tc main_v60)
      = Host.scatterAdd scatter_S100000x128_S1600000x1_S1600000x128_1_0_0_1 seed (broadcastInDim S1600000x1 ![0] bcast_S1600000_S1600000x1_0 (select (cmpi .slt i3 (broadcastInDim S1600000 ![] bcast_S_S1600000 (constantI S_ 32 0#32))) (addi i3 (broadcastInDim S1600000 ![] bcast_S_S1600000 (constantI S_ 32 100000#32))) i3)) (mulf (broadcastInDim S1600000x128 ![0, 1] bcast_S1600000x1_S1600000x128_0_1 (broadcastInDim S1600000x1 ![0] bcast_S1600000_S1600000x1_0 norm)) (extf .f32 (Host.gather gather_S100000x128_S1600000x1_S1600000x128_1_0_n_n_0_1_1128 xwb (broadcastInDim S1600000x1 ![0] bcast_S1600000_S1600000x1_0 (select (cmpi .slt i1 (broadcastInDim S1600000 ![] bcast_S_S1600000 (constantI S_ 32 0#32))) (addi i1 (broadcastInDim S1600000 ![] bcast_S_S1600000 (constantI S_ 32 100000#32))) i1))) bitsLt_bf16_f32)) := by
  dsimp only [hostOps3]; after_results_simp; rw [h42, h38, h1, h3, h39]

/-- Wrapping negative destination ids changes nothing: there are none. -/
theorem dst_wrap (c : Dev nD) (h46 : val_main_v46 (F := Ideal) (a1 m c) = val_main_v3 (F := Ideal) (a1 m c)) :
    (select (cmpi .slt (val_main_v3 (F := Ideal) (a1 m c)) (broadcastInDim S1600000 ![] bcast_S_S1600000 (constantI S_ 32 0#32))) (addi (val_main_v3 (F := Ideal) (a1 m c)) (broadcastInDim S1600000 ![] bcast_S_S1600000 (constantI S_ 32 100000#32))) (val_main_v3 (F := Ideal) (a1 m c))) = val_main_v3 (F := Ideal) (a1 m c) := by
  refine Eq.trans ?_ h46
  unfold val_main_v46 val_main_v45 val_main_v44 val_main_v43 val_main_v42
  rfl

/-- The first layer's output before the rectifier is the reference's. -/
theorem w9_v60 (c : Dev nD) (h46 : val_main_v46 (F := Ideal) (a1 m c) = val_main_v3 (F := Ideal) (a1 m c)) :
    W9 (F := Ideal) m ρ c (Proc.devRef .tc main_v60) = val_main_v70 (F := Ideal) (a0 m c) (a1 m c) (a2 m c) (a3 m c) (a4 m c) (a7 m c) (a8 m c) (a9 m c) (a10 m c) := by
  refine (layer1_form (W8 m ρ c) _ _ _ _ _ (w8_v42 m ρ c) (w8_v38 m ρ c) (w8_v1 m ρ c) (w8_v3 m ρ c) (w8_v39_1 m ρ c)).trans ?_
  rw [dst_wrap m c h46]
  refine (Cert.RefSide.layer128 _ _ _ _ _ _ _).trans ?_
  unfold val_main_v70 val_main_v67 val_main_v69 val_main_v68 val_main_v62 val_main_v66 val_main_v65 val_main_v64 val_main_v61
    val_main_v59 val_main_v58 val_main_v57 val_main_v56 val_main_v55 val_main_v54 val_main_v53 val_main_v52 val_main_v51 val_main_v50
  rfl

end Cert.KernelIdeal.Host

end
-- ==== Proof.Stage3.lean ====
/-
  The second matrix-product stage: on each of its twenty row blocks the tiled program rectifies a 5000 × 128 block of
  the left array against the literal zero, multiplies it by the whole 128 × 64 right array into a zero accumulator; both
  of its result arrays (the binary32 one and its narrowing, which is the identity on extended reals) end holding the
  matrix product of the rectified left array with the right array.
-/
import proofs.«104486_j88356067213587_2_alg».proof.Proof.Gen.KernelIdeal.Frame
import proofs.«104486_j88356067213587_2_alg».proof.Proof.Spec
import Idealize.ShloMosaic.Lib.Pipeline.Value
import Idealize.ShloMosaic.Lib.ValueIdx
import Idealize.ShloMosaic.PureOps.Ideal.Laws

noncomputable section

namespace Cert.KernelIdeal.Stage3

open Cert.KernelIdeal Cert.KernelIdeal.Gen Idealize.ShloMosaic Idealize.ShloMosaic.TcCoe Idealize.SL.Sem Idealize.ShloMosaic.ValueIdx
open Idealize.ShloMosaic.Pipeline (Dat)

/-! ## The block product at an index -/

/-- The left operand's row is the output's row. -/
theorem lhs_row (i : S5000x64.Idx) (s : dot_S5000x128_S128x64_S5000x64_1_0_0_1_n_n.contr.Idx) :
    (dot_S5000x128_S128x64_S5000x64_1_0_0_1_n_n.lhsIdx i s 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contraction coordinate. -/
theorem lhs_col (i : S5000x64.Idx) (s : dot_S5000x128_S128x64_S5000x64_1_0_0_1_n_n.contr.Idx) :
    (dot_S5000x128_S128x64_S5000x64_1_0_0_1_n_n.lhsIdx i s 1).val = (s ⟨0, by decide⟩).val :=
  dot_S5000x128_S128x64_S5000x64_1_0_0_1_n_n.lhsIdx_val_of_single rfl i s
/-- The right operand's row is the contraction coordinate. -/
theorem rhs_row (i : S5000x64.Idx) (s : dot_S5000x128_S128x64_S5000x64_1_0_0_1_n_n.contr.Idx) :
    (dot_S5000x128_S128x64_S5000x64_1_0_0_1_n_n.rhsIdx i s 0).val = (s ⟨0, by decide⟩).val :=
  dot_S5000x128_S128x64_S5000x64_1_0_0_1_n_n.rhsIdx_val_of_single rfl i s
/-- The right operand's column is the output's column. -/
theorem rhs_col (i : S5000x64.Idx) (s : dot_S5000x128_S128x64_S5000x64_1_0_0_1_n_n.contr.Idx) :
    (dot_S5000x128_S128x64_S5000x64_1_0_0_1_n_n.rhsIdx i s 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product of the rectified block into a zero accumulator, entry (p, q): the sum over k of max(x(p, k), +0.0) · w(k, q);
    the cast to the block's own shape and the narrowing of the operands are the identity. -/
theorem pay1_apply (x0 : Vec Ideal S5000x128 .f32) (x1 : Vec Ideal S128x64 .f32) (p : Fin 5000) (q : Fin 64) :
    k3_pay1 (F := Ideal) x0 x1 (ix2 p q)
      = ∑ k : Fin 128, max (x0 (ix2 p k)) (Ideal.ofBits .f32 0x00000000#32) * x1 (ix2 k q) := by
  unfold k3_pay1
  simp only [matmul, shapeCast_self]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- The narrowed product is the product. -/
theorem pay2_apply (x0 : Vec Ideal S5000x128 .f32) (x1 : Vec Ideal S128x64 .f32) (p : Fin 5000) (q : Fin 64) :
    k3_pay2 (F := Ideal) x0 x1 (ix2 p q)
      = ∑ k : Fin 128, max (x0 (ix2 p k)) (Ideal.ofBits .f32 0x00000000#32) * x1 (ix2 k q) :=
  pay1_apply x0 x1 p q

/-! ## Where each block sits in its array -/

theorem zero_off : (![0, 0] : Fin 2 → Nat) = fun _ => 0 := funext fun a => by fin_cases a <;> rfl

/-- The grid has twenty points. -/
theorem point_lt (t : Fin cfg3.N) : t.val < 20 := lt_of_lt_of_eq t.isLt N_3

/-- The windows' index maps over the grid: the left array's and both results' blocks are row block t, the right array's
    the whole array. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row t·5000 + p of the arrays blocked by rows. -/
abbrev rowOf (t : Fin cfg3.N) (p : Fin 5000) : Fin 100000 := ⟨t.val * 5000 + p.val, by have := point_lt t; omega⟩

/-- Entry (p, k) of the left array's block at point t is entry (t·5000 + p, k) of the array. -/
theorem emb_left (t : Fin cfg3.N) (p : Fin 5000) (k : Fin 128) :
    ((cfg3.win 0).blk t).view.emb (ix2 p k) = ix2 (rowOf t p) k := by
  obtain ⟨e0, e1, -⟩ := block_index t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

/-- The right array's block at every point is the array. -/
theorem emb_right (t : Fin cfg3.N) (k : Fin 128) (q : Fin 64) :
    ((cfg3.win 1).blk t).view.emb (ix2 k q) = ix2 k q := by
  obtain ⟨-, -, e2, e3, -⟩ := block_index t
  funext a; apply Fin.ext
  match a with
  | ⟨0, _⟩ => show win3_1.index t (0 : Fin 2) * 128 + 1 * k.val = k.val; omega
  | ⟨1, _⟩ => show win3_1.index t (1 : Fin 2) * 64 + 1 * q.val = q.val; omega

/-- Entry (p, q) of the first result's block at point t is entry (t·5000 + p, q) of the array. -/
theorem emb_out2 (t : Fin cfg3.N) (p : Fin 5000) (q : Fin 64) :
    ((cfg3.win 2).blk t).view.emb (ix2 p q) = ix2 (rowOf t p) q := by
  obtain ⟨-, -, -, -, e4, e5, -⟩ := block_index t
  funext a; apply Fin.ext
  match a with
  | ⟨0, _⟩ => show win3_2.index t (0 : Fin 2) * 5000 + 1 * p.val = t.val * 5000 + p.val; omega
  | ⟨1, _⟩ => show win3_2.index t (1 : Fin 2) * 64 + 1 * q.val = q.val; omega

/-- Entry (p, q) of the second result's block at point t is entry (t·5000 + p, q) of the array. -/
theorem emb_out3 (t : Fin cfg3.N) (p : Fin 5000) (q : Fin 64) :
    ((cfg3.win 3).blk t).view.emb (ix2 p q) = ix2 (rowOf t p) q := by
  obtain ⟨-, -, -, -, -, -, e6, e7⟩ := block_index t
  funext a; apply Fin.ext
  match a with
  | ⟨0, _⟩ => show win3_3.index t (0 : Fin 2) * 5000 + 1 * p.val = t.val * 5000 + p.val; omega
  | ⟨1, _⟩ => show win3_3.index t (1 : Fin 2) * 64 + 1 * q.val = q.val; omega

/-- Entry (p, k) of the left array's block at point t is entry (t·5000 + p, k) of the array. -/
theorem left_block_apply (V : (c : Dev nD) → (b : Ref sig .tc) → Buf (Elt Ideal) ((c : Thread nD τ).loc b)) (c : Dev nD) (t : Fin cfg3.N) (p : Fin 5000) (k : Fin 128) :
    iblk3 V c 0 t (ix2 p k) = V c main_v60 (ix2 (rowOf t p) k) := by
  show V c main_v60 (((cfg3.win 0).blk t).view.emb (ix2 p k)) = _
  rw [emb_left]

/-- Entry (k, q) of the right array's block at any point is entry (k, q) of the array. -/
theorem right_block_apply (V : (c : Dev nD) → (b : Ref sig .tc) → Buf (Elt Ideal) ((c : Thread nD τ).loc b)) (c : Dev nD) (t : Fin cfg3.N) (k : Fin 128) (q : Fin 64) :
    iblk3 V c 1 t (ix2 k q) = V c main_arg5 (ix2 k q) := by
  show V c main_arg5 (((cfg3.win 1).blk t).view.emb (ix2 k q)) = _
  rw [emb_right]

/-- A 5000 × 128 block x that is rows r, r + 1, … of the array A, rectified, times a block w that is the whole array B:
    row p of the block product is row r + p of the product of the rectified array with B. -/
theorem block_product (A : Cert.Spec.Arr2 100000 128) (B : Cert.Spec.Arr2 128 64)
    (x : Vec Ideal S5000x128 .f32) (w : Vec Ideal S128x64 .f32) (r : Fin 100000) (p : Fin 5000) (q : Fin 64)
    (hx : ∀ k : Fin 128, x (ix2 p k) = A (ix2 r k)) (hw : ∀ k : Fin 128, w (ix2 k q) = B (ix2 k q)) :
    ∑ k : Fin 128, max (x (ix2 p k)) (Ideal.ofBits .f32 0x00000000#32) * w (ix2 k q)
      = Cert.Spec.mm (Cert.Spec.relu A) B (ix2 r q) := by
  show _ = ∑ k : Fin 128, max (A (ix2 r k)) (Ideal.ofBits .f32 0x00000000#32) * B (ix2 k q)
  exact Finset.sum_congr rfl fun k _ => by rw [hx k, hw k]

/-! ## The first result (binary32) -/

/-- What point t writes back is block t of the product of the rectified left array with the right array. -/
theorem flushed2_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.Spec.mm (M := 100000) (K := 128) (N := 64) (Cert.Spec.relu (M := 100000) (N := 128) (V c main_v60)) (V c main_arg5)) := by
  show (cfg3.win 2).cut (grid3.coords t) ((dat3 V c).after 2 t) = _
  rw [after3_2]
  unfold out3_2
  rw [View.canon_unit_zero zero_off]
  simp only [View.ld_unit_zero (S := S5000x128) zero_off, View.ld_unit_zero (S := S128x64) zero_off]
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (ix2 p q)
      = Cert.Spec.mm (M := 100000) (K := 128) (N := 64) (Cert.Spec.relu (M := 100000) (N := 128) (V c main_v60)) (V c main_arg5) (((cfg3.win 2).blk t).view.emb (ix2 p q))
  rw [emb_out2]
  exact (pay1_apply _ _ p q).trans (block_product (V c main_v60) (V c main_arg5) (iblk3 V c 0 t) (iblk3 V c 1 t) (rowOf t p) p q
    (fun k => left_block_apply V c t p k) (fun k => right_block_apply V c t k q))

/-- An index of the array is in point t's block iff each coordinate is in the block's range on its axis. -/
theorem mem_blk2 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61_0).slice (win3_2.rect t)).set ↔ _
  rw [View.set_slice_whole, Rect.mem_set_unit]
  exact Iff.rfl

/-- Row r lies in the block of point r / 5000: the twenty row blocks tile the array. -/
theorem cover2 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have ht : (i 0).val / 5000 < cfg3.N := lt_of_lt_of_eq (by omega : (i 0).val / 5000 < 20) N_3.symm
  obtain ⟨-, -, -, -, e4, e5, -⟩ := block_index ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk2]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    omega

/-- The first result array after the stage: the product of the rectified left array with the right array. -/
theorem final3_2 (V : (c : Dev nD) → (b : Ref sig .tc) → Buf (Elt Ideal) ((c : Thread nD τ).loc b)) (c : Dev nD) :
    (dat3 (F := Ideal) V c).arrAt 2 cfg3.N = Cert.Spec.mm (Cert.Spec.relu (V c main_v60)) (V c main_arg5) :=
  (dat3 V c).arrAt_eq_of_cover 2 _ (fun t _ => flushed2_eq V c t) cover2

/-! ## The second result (the narrowing of the first: the same extended reals) -/

/-- What point t writes back is block t of the product of the rectified left array with the right array. -/
theorem flushed3_eq (V : (c : Dev nD) → (b : Ref sig .tc) → Buf (Elt Ideal) ((c : Thread nD τ).loc b)) (c : Dev nD) (t : Fin cfg3.N) :
    (dat3 (F := Ideal) V c).flushed 3 t
      = ((cfg3.win 3).blk t).view.read (Elt Ideal) (Cert.Spec.mm (M := 100000) (K := 128) (N := 64) (Cert.Spec.relu (M := 100000) (N := 128) (V c main_v60)) (V c main_arg5)) := by
  show (cfg3.win 3).cut (grid3.coords t) ((dat3 V c).after 3 t) = _
  rw [after3_3]
  unfold out3_3
  rw [View.canon_unit_zero zero_off]
  simp only [View.ld_unit_zero (S := S5000x128) zero_off, View.ld_unit_zero (S := S128x64) zero_off]
  funext j
  obtain ⟨p, q, rfl⟩ : ∃ (p : Fin 5000) (q : Fin 64), j = ix2 p q := ⟨j 0, j 1, eq_ix2 j⟩
  show k3_pay2 (F := Ideal) (iblk3 V c 0 t) (iblk3 V c 1 t) (ix2 p q)
      = Cert.Spec.mm (M := 100000) (K := 128) (N := 64) (Cert.Spec.relu (M := 100000) (N := 128) (V c main_v60)) (V c main_arg5) (((cfg3.win 3).blk t).view.emb (ix2 p q))
  rw [emb_out3]
  exact (pay2_apply _ _ p q).trans (block_product (V c main_v60) (V c main_arg5) (iblk3 V c 0 t) (iblk3 V c 1 t) (rowOf t p) p q
    (fun k => left_block_apply V c t p k) (fun k => right_block_apply V c t k q))

/-- An index of the array is in point t's block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v61_1).slice (win3_3.rect t)).set ↔ _
  rw [View.set_slice_whole, Rect.mem_set_unit]
  exact Iff.rfl

/-- Row r lies in the block of point r / 5000: the twenty row blocks tile the array. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 5000 < cfg3.N := lt_of_lt_of_eq (by omega : (i 0).val / 5000 < 20) N_3.symm
  obtain ⟨-, -, -, -, -, -, e6, e7⟩ := block_index ⟨(i 0).val / 5000, ht⟩
  have e6' : win3_3.index ⟨(i 0).val / 5000, ht⟩ (0 : Fin 2) = (i 0).val / 5000 := e6
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    omega
  | ⟨1, _⟩ =>
    show win3_3.index ⟨(i 0).val / 5000, ht⟩ (1 : Fin 2) * 64 ≤ (i 1).val ∧ (i 1).val < win3_3.index ⟨(i 0).val / 5000, ht⟩ (1 : Fin 2) * 64 + 64
    omega

/-- The second result array after the stage: the product of the rectified left array with the right array. -/
theorem final3_3 (V : (c : Dev nD) → (b : Ref sig .tc) → Buf (Elt Ideal) ((c : Thread nD τ).loc b)) (c : Dev nD) :
    (dat3 (F := Ideal) V c).arrAt 3 cfg3.N = Cert.Spec.mm (Cert.Spec.relu (V c main_v60)) (V c main_arg5) :=
  (dat3 V c).arrAt_eq_of_cover 3 _ (fun t _ => flushed3_eq V c t) cover3

end Cert.KernelIdeal.Stage3

end
-- ==== Proof.Stage4.lean ====
/-
  The self-loop term of one graph-convolution layer, as the tiled stage computes it: every grid point scales its block
  of rows by the rows' column entries and adds the bias row, and the twenty row blocks tile the result array, which
  therefore ends holding d(r) · xw(r, q) + b(q) at every index.
-/
import proofs.«104486_j88356067213587_2_alg».proof.Proof.Gen.KernelIdeal.Frame
import proofs.«104486_j88356067213587_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage4

open Cert.KernelIdeal Cert.KernelIdeal.Gen Idealize.ShloMosaic Idealize.ShloMosaic.TcCoe Idealize.SL.Sem Idealize.ShloMosaic.ValueIdx
open Idealize.ShloMosaic.Pipeline (Dat)

/-- The offsets of a whole-block access, however the zeros are spelt. -/
theorem hz : (![0, 0] : Fin 2 → Nat) = fun _ => 0 := funext fun a => by fin_cases a <;> rfl

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at an index: the row's scale times the block's entry, plus the lane's bias. -/
theorem pay_apply (x0 : Vec Ideal S5000x64 .f32) (x1 : Vec Ideal S5000x1 .f32) (x2 : Vec Ideal S1x64 .f32)
    (p : Fin 5000) (q : Fin 64) :
    k4_pay1 x0 x1 x2 (ix2 p q) = x1 (ix2 p (0 : Fin 1)) * x0 (ix2 p q) + x2 (ix2 (0 : Fin 1) q) := by
  unfold k4_pay1
  simp only [shapeCast_self]
  rw [addf_apply, mulf_apply, broadcastTo_a1_ab_apply, broadcastTo_1b_ab_apply]

/-- The printed index maps, decided over the grid: the three row-blocked windows sit at block `(t, 0)`, the bias row
    at block `(0, 0)`. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Block `t` of the self-loop term, entry by entry: the three input blocks at point `t` read the arrays at the rows
    the output's block covers (a block's array coordinate is its index times its size plus the coordinate inside). -/
theorem block_eq (X0 : Cert.Spec.Arr2 100000 64) (X1 : Cert.Spec.Arr2 100000 1) (X2 : Cert.Spec.Arr2 1 64)
    (t : Fin cfg4.N) (p : Fin 5000) (q : Fin 64) :
    X1 (((cfg4.win 1).blk t).view.emb (ix2 p (0 : Fin 1))) * X0 (((cfg4.win 0).blk t).view.emb (ix2 p q))
        + X2 (((cfg4.win 2).blk t).view.emb (ix2 (0 : Fin 1) q))
      = Cert.Spec.selfTerm X0 X1 X2 (((cfg4.win 3).blk t).view.emb (ix2 p q)) := by
  obtain ⟨e0, e1, e2, e3, e4, e5, e6, e7⟩ := idx_facts t
  unfold Cert.Spec.selfTerm
  have h0 : ((cfg4.win 0).blk t).view.emb (ix2 p q) = ((cfg4.win 3).blk t).view.emb (ix2 p q) := by
    funext a; apply Fin.ext
    match a with
    | ⟨0, _⟩ => show win4_0.index t (0 : Fin 2) * 5000 + 1 * p.val = win4_3.index t (0 : Fin 2) * 5000 + 1 * p.val; omega
    | ⟨1, _⟩ => show win4_0.index t (1 : Fin 2) * 64 + 1 * q.val = win4_3.index t (1 : Fin 2) * 64 + 1 * q.val; omega
  have h1 : ((cfg4.win 1).blk t).view.emb (ix2 p (0 : Fin 1))
      = ix2 (((cfg4.win 3).blk t).view.emb (ix2 p q) 0) (0 : Fin 1) := by
    funext a; apply Fin.ext
    match a with
    | ⟨0, _⟩ => show win4_1.index t (0 : Fin 2) * 5000 + 1 * p.val = win4_3.index t (0 : Fin 2) * 5000 + 1 * p.val; omega
    | ⟨1, _⟩ => show win4_1.index t (1 : Fin 2) * 1 + 1 * 0 = 0; omega
  have h2 : ((cfg4.win 2).blk t).view.emb (ix2 (0 : Fin 1) q)
      = ix2 (0 : Fin 1) (((cfg4.win 3).blk t).view.emb (ix2 p q) 1) := by
    funext a; apply Fin.ext
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega
  rw [h0, h1, h2]
  rfl

/-- WHAT POINT `t` WRITES BACK is block `t` of the self-loop term of the three arrays as the stage finds them. -/
theorem flushed_eq (V : (c : Dev nD) → (b : Ref sig .tc) → Buf (Elt Ideal) ((c : Thread nD τ).loc b)) (c : Dev nD) (t : Fin cfg4.N) :
    (dat4 (F := Ideal) V c).flushed 3 t
      = ((cfg4.win 3).blk t).view.read (Elt Ideal) (Cert.Spec.selfTerm (V c main_v61_0) (V c main_v62) (V c main_v63)) := by
  show (cfg4.win 3).cut (grid4.coords t) ((dat4 V c).after 3 t) = _
  rw [after4_3]
  unfold out4_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  refine (pay_apply _ _ _ p q).trans ?_
  exact block_eq (V c main_v61_0) (V c main_v62) (V c main_v63) t p q

/-- An index of the array is in point `t`'s block iff each coordinate is in the block's range on its axis. -/
theorem mem_blk (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v64).slice (win4_3.rect t)).set ↔ _
  rw [View.set_slice_whole, Rect.mem_set_unit]
  exact Iff.rfl

/-- The twenty row blocks tile the array: row `r` is in the block of point `r / 5000`. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have ht : (i 0).val / 5000 < cfg4.N := by rw [show cfg4.N = 20 from N_4]; omega
  obtain ⟨e0, e1, e2, e3, e4, e5, e6, e7⟩ := idx_facts ⟨(i 0).val / 5000, ht⟩
  refine ⟨⟨(i 0).val / 5000, ht⟩, flush4_3 _, ?_⟩
  rw [mem_blk]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win4_3.index ⟨(i 0).val / 5000, ht⟩ (1 : Fin 2) * 64 ≤ (i 1).val
      ∧ (i 1).val < win4_3.index ⟨(i 0).val / 5000, ht⟩ (1 : Fin 2) * 64 + 64
    rw [e7]; omega

/-- THE ARRAY after the stage: the self-loop term of the three arrays the stage reads, at every index. -/
theorem final4_3 (V : (c : Dev nD) → (b : Ref sig .tc) → Buf (Elt Ideal) ((c : Thread nD τ).loc b)) (c : Dev nD) :
    (dat4 (F := Ideal) V c).arrAt 3 cfg4.N = Cert.Spec.selfTerm (V c main_v61_0) (V c main_v62) (V c main_v63) :=
  (dat4 V c).arrAt_eq_of_cover 3 _ (fun t _ => flushed_eq V c t) cover

end Cert.KernelIdeal.Stage4

end
-- ==== Proof.RefDup.lean ====
/-
  The reference computes the degree scale and the per-edge normalisation once per layer: the second layer's
  operations are the first layer's again, the same operations of the same operands. Unfolding both towers down to
  the shared stages (the destination ids, the source ids and the per-edge weight) leaves one term on both sides.
-/
import proofs.«104486_j88356067213587_2_alg».proof.Proof.Gen.ReferenceIdeal.Read

noncomputable section

namespace Cert.RefSide

open Cert.ReferenceIdeal Cert.ReferenceIdeal.Read Idealize.ShloMosaic

variable {F : FTy → Type} [FloatOps F]

/-- The degree scale: scatter-add of the per-edge weights at the destination ids into zeros, plus one, then the
    reciprocal square root where that is positive and zero elsewhere — the second layer's copy is the first's. -/
theorem v81_eq (x1 : (⟨S2x1600000, .i32⟩ : BufTy).Contents (Elt F)) (x2 : (⟨S1600000x1, .f32⟩ : BufTy).Contents (Elt F))
    (x7 : (⟨S1x16, .f32⟩ : BufTy).Contents (Elt F)) (x8 : (⟨S16, .f32⟩ : BufTy).Contents (Elt F))
    (x9 : (⟨S16x1, .f32⟩ : BufTy).Contents (Elt F)) (x10 : (⟨S1, .f32⟩ : BufTy).Contents (Elt F)) :
    val_main_v81 (F := F) x1 x2 x7 x8 x9 x10 = val_main_v33 (F := F) x1 x2 x7 x8 x9 x10 := by
  unfold val_main_v81 val_main_v79 val_main_v80 val_main_call3_v1 val_main_call3_v0 val_main_cst_16 val_main_v78
    val_main_cst_15 val_main_v77 val_main_v76 val_main_cst_14 val_main_v75 val_main_v74 val_main_v73 val_main_cst_13
  unfold val_main_v33 val_main_v31 val_main_v32 val_main_call1_v1 val_main_call1_v0 val_main_cst_6 val_main_v30
    val_main_cst_5 val_main_v29 val_main_v28 val_main_cst_4 val_main_v27 val_main_v26 val_main_v25 val_main_cst_3
  rfl

/-- The squared degree scale (the self-loop's coefficient) of the second layer is the first layer's. -/
theorem v111_eq (x1 : (⟨S2x1600000, .i32⟩ : BufTy).Contents (Elt F)) (x2 : (⟨S1600000x1, .f32⟩ : BufTy).Contents (Elt F))
    (x7 : (⟨S1x16, .f32⟩ : BufTy).Contents (Elt F)) (x8 : (⟨S16, .f32⟩ : BufTy).Contents (Elt F))
    (x9 : (⟨S16x1, .f32⟩ : BufTy).Contents (Elt F)) (x10 : (⟨S1, .f32⟩ : BufTy).Contents (Elt F)) :
    val_main_v111 (F := F) x1 x2 x7 x8 x9 x10 = val_main_v63 (F := F) x1 x2 x7 x8 x9 x10 := by
  unfold val_main_v111 val_main_v63
  rw [v81_eq]

/-- The per-edge normalisation scale(src) · weight · scale(dst), both ids wrapped around where negative: the
    second layer's copy is the first's. -/
theorem v97_eq (x1 : (⟨S2x1600000, .i32⟩ : BufTy).Contents (Elt F)) (x2 : (⟨S1600000x1, .f32⟩ : BufTy).Contents (Elt F))
    (x7 : (⟨S1x16, .f32⟩ : BufTy).Contents (Elt F)) (x8 : (⟨S16, .f32⟩ : BufTy).Contents (Elt F))
    (x9 : (⟨S16x1, .f32⟩ : BufTy).Contents (Elt F)) (x10 : (⟨S1, .f32⟩ : BufTy).Contents (Elt F)) :
    val_main_v97 (F := F) x1 x2 x7 x8 x9 x10 = val_main_v49 (F := F) x1 x2 x7 x8 x9 x10 := by
  unfold val_main_v97 val_main_v96 val_main_v95 val_main_v94 val_main_v93 val_main_v92 val_main_c_20 val_main_v91
    val_main_v90 val_main_c_19 val_main_v89 val_main_v88 val_main_v87 val_main_v86 val_main_v85 val_main_v84
    val_main_c_18 val_main_v83 val_main_v82 val_main_c_17
  unfold val_main_v49 val_main_v48 val_main_v47 val_main_v46 val_main_v45 val_main_v44 val_main_c_9 val_main_v43
    val_main_v42 val_main_c_8 val_main_v41 val_main_v40 val_main_v39 val_main_v38 val_main_v37 val_main_v36
    val_main_c_7 val_main_v35 val_main_v34 val_main_c
  rw [v81_eq]

end Cert.RefSide

end
-- ==== Proof.KHost3.lean ====
/-
  The idealized kernel program's host chain, third part: the second graph-convolution layer — the rectifier fused into
  the dense product (fourth tiled stage), the self-loop term (fifth tiled stage), the messages scattered onto it — and
  with it the program's result, which is the reference's result array.  The scale, its square and the edge norms are
  computed once by the kernel program and twice (once per layer) by the reference: the same values.
-/
import proofs.«104486_j88356067213587_2_alg».proof.Proof.KHost2
import proofs.«104486_j88356067213587_2_alg».proof.Proof.Stage3
import proofs.«104486_j88356067213587_2_alg».proof.Proof.Stage4
import proofs.«104486_j88356067213587_2_alg».proof.Proof.RefDup

set_option maxRecDepth 16384

noncomputable section

namespace Cert.KernelIdeal.Host

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Layer two -/
theorem w9_v22 (c : Dev nD) : W9 (F := Ideal) m ρ c (Proc.devRef .tc main_v22) = val_main_v63 (F := Ideal) (a1 m c) (a2 m c) (a7 m c) (a8 m c) (a9 m c) (a10 m c) := by
  dsimp only [W9, hostOps3]; after_results; exact w8_v22 m ρ c
theorem w9_v38 (c : Dev nD) : W9 (F := Ideal) m ρ c (Proc.devRef .tc main_v38) = val_main_v49 (F := Ideal) (a1 m c) (a2 m c) (a7 m c) (a8 m c) (a9 m c) (a10 m c) := by
  dsimp only [W9, hostOps3]; after_results; exact w8_v38 m ρ c
theorem w9_v1 (c : Dev nD) : W9 (F := Ideal) m ρ c (Proc.devRef .tc main_v1) = val_main_v1 (F := Ideal) (a1 m c) := by
  dsimp only [W9, hostOps3]; after_results; exact w8_v1 m ρ c
theorem w9_v3 (c : Dev nD) : W9 (F := Ideal) m ρ c (Proc.devRef .tc main_v3) = val_main_v3 (F := Ideal) (a1 m c) := by
  dsimp only [W9, hostOps3]; after_results; exact w8_v3 m ρ c
theorem w9_arg5 (c : Dev nD) : W9 (F := Ideal) m ρ c (Proc.devRef .tc main_arg5) = a5 m c := by
  dsimp only [W9, hostOps3]; after_results; exact w8_arg5 m ρ c
theorem w9_arg6 (c : Dev nD) : W9 (F := Ideal) m ρ c (Proc.devRef .tc main_arg6) = a6 m c := by
  dsimp only [W9, hostOps3]; after_results; exact w8_arg6 m ρ c

theorem w10_v61_0 (c : Dev nD) (h46 : val_main_v46 (F := Ideal) (a1 m c) = val_main_v3 (F := Ideal) (a1 m c)) :
    W10 (F := Ideal) m ρ c (Proc.devRef .tc main_v61_0) = val_main_v72 (F := Ideal) (a0 m c) (a1 m c) (a2 m c) (a3 m c) (a4 m c) (a5 m c) (a7 m c) (a8 m c) (a9 m c) (a10 m c) := by
  refine ((W10_arr m ρ c 2).trans (Cert.KernelIdeal.Stage3.final3_2 (V9 m ρ) c)).trans ?_
  show Cert.Spec.mm (Cert.Spec.relu (W9 m ρ c (Proc.devRef .tc main_v60))) (W9 m ρ c (Proc.devRef .tc main_arg5)) = _
  rw [w9_v60 m ρ c h46, w9_arg5]
  exact Cert.RefSide.mm_v72 _ _ _ _ _ _ _ _ _ _
theorem w10_v61_1 (c : Dev nD) (h46 : val_main_v46 (F := Ideal) (a1 m c) = val_main_v3 (F := Ideal) (a1 m c)) :
    (W10 (F := Ideal) m ρ c (Proc.devRef .tc main_v61_1) : FVec Ideal S100000x64 .bf16) = val_main_v72 (F := Ideal) (a0 m c) (a1 m c) (a2 m c) (a3 m c) (a4 m c) (a5 m c) (a7 m c) (a8 m c) (a9 m c) (a10 m c) := by
  refine ((W10_arr m ρ c 3).trans (Cert.KernelIdeal.Stage3.final3_3 (V9 m ρ) c)).trans ?_
  show Cert.Spec.mm (Cert.Spec.relu (W9 m ρ c (Proc.devRef .tc main_v60))) (W9 m ρ c (Proc.devRef .tc main_arg5)) = _
  rw [w9_v60 m ρ c h46, w9_arg5]
  exact Cert.RefSide.mm_v72 _ _ _ _ _ _ _ _ _ _
theorem w10_v22 (c : Dev nD) : W10 (F := Ideal) m ρ c (Proc.devRef .tc main_v22) = val_main_v63 (F := Ideal) (a1 m c) (a2 m c) (a7 m c) (a8 m c) (a9 m c) (a10 m c) :=
  (W10_of_ne m ρ c main_v22 (by decide)).trans (w9_v22 m ρ c)
theorem w10_v38 (c : Dev nD) : W10 (F := Ideal) m ρ c (Proc.devRef .tc main_v38) = val_main_v49 (F := Ideal) (a1 m c) (a2 m c) (a7 m c) (a8 m c) (a9 m c) (a10 m c) :=
  (W10_of_ne m ρ c main_v38 (by decide)).trans (w9_v38 m ρ c)
theorem w10_v1 (c : Dev nD) : W10 (F := Ideal) m ρ c (Proc.devRef .tc main_v1) = val_main_v1 (F := Ideal) (a1 m c) :=
  (W10_of_ne m ρ c main_v1 (by decide)).trans (w9_v1 m ρ c)
theorem w10_v3 (c : Dev nD) : W10 (F := Ideal) m ρ c (Proc.devRef .tc main_v3) = val_main_v3 (F := Ideal) (a1 m c) :=
  (W10_of_ne m ρ c main_v3 (by decide)).trans (w9_v3 m ρ c)
theorem w10_arg6 (c : Dev nD) : W10 (F := Ideal) m ρ c (Proc.devRef .tc main_arg6) = a6 m c :=
  (W10_of_ne m ρ c main_arg6 (by decide)).trans (w9_arg6 m ρ c)

theorem w11_v61_0 (c : Dev nD) (h46 : val_main_v46 (F := Ideal) (a1 m c) = val_main_v3 (F := Ideal) (a1 m c)) :
    W11 (F := Ideal) m ρ c (Proc.devRef .tc main_v61_0) = val_main_v72 (F := Ideal) (a0 m c) (a1 m c) (a2 m c) (a3 m c) (a4 m c) (a5 m c) (a7 m c) (a8 m c) (a9 m c) (a10 m c) := by
  dsimp only [W11, hostOps4]; after_results; exact w10_v61_0 m ρ c h46
theorem w11_v61_1 (c : Dev nD) (h46 : val_main_v46 (F := Ideal) (a1 m c) = val_main_v3 (F := Ideal) (a1 m c)) :
    (W11 (F := Ideal) m ρ c (Proc.devRef .tc main_v61_1) : FVec Ideal S100000x64 .bf16) = val_main_v72 (F := Ideal) (a0 m c) (a1 m c) (a2 m c) (a3 m c) (a4 m c) (a5 m c) (a7 m c) (a8 m c) (a9 m c) (a10 m c) := by
  dsimp only [W11, hostOps4]; after_results; exact w10_v61_1 m ρ c h46
theorem w11_v62 (c : Dev nD) : W11 (F := Ideal) m ρ c (Proc.devRef .tc main_v62)
    = shapeCast S100000x1 (val_main_v63 (F := Ideal) (a1 m c) (a2 m c) (a7 m c) (a8 m c) (a9 m c) (a10 m c)) shapeCasts_S100000_S100000x1 := by
  dsimp only [W11, hostOps4]; after_results; rw [w10_v22]; rfl
theorem w11_v63 (c : Dev nD) : W11 (F := Ideal) m ρ c (Proc.devRef .tc main_v63) = shapeCast S1x64 (a6 m c) shapeCasts_S64_S1x64 := by
  dsimp only [W11, hostOps4]; after_results; rw [w10_arg6]; rfl
theorem w11_v38 (c : Dev nD) : W11 (F := Ideal) m ρ c (Proc.devRef .tc main_v38) = val_main_v49 (F := Ideal) (a1 m c) (a2 m c) (a7 m c) (a8 m c) (a9 m c) (a10 m c) := by
  dsimp only [W11, hostOps4]; after_results; exact w10_v38 m ρ c
theorem w11_v1 (c : Dev nD) : W11 (F := Ideal) m ρ c (Proc.devRef .tc main_v1) = val_main_v1 (F := Ideal) (a1 m c) := by
  dsimp only [W11, hostOps4]; after_results; exact w10_v1 m ρ c
theorem w11_v3 (c : Dev nD) : W11 (F := Ideal) m ρ c (Proc.devRef .tc main_v3) = val_main_v3 (F := Ideal) (a1 m c) := by
  dsimp only [W11, hostOps4]; after_results; exact w10_v3 m ρ c

theorem w12_v64 (c : Dev nD) (h46 : val_main_v46 (F := Ideal) (a1 m c) = val_main_v3 (F := Ideal) (a1 m c)) :
    W12 (F := Ideal) m ρ c (Proc.devRef .tc main_v64)
    = Cert.Spec.selfTerm (val_main_v72 (F := Ideal) (a0 m c) (a1 m c) (a2 m c) (a3 m c) (a4 m c) (a5 m c) (a7 m c) (a8 m c) (a9 m c) (a10 m c))
        (shapeCast S100000x1 (val_main_v63 (F := Ideal) (a1 m c) (a2 m c) (a7 m c) (a8 m c) (a9 m c) (a10 m c)) shapeCasts_S100000_S100000x1)
        (shapeCast S1x64 (a6 m c) shapeCasts_S64_S1x64) := by
  refine ((W12_arr m ρ c 3).trans (Cert.KernelIdeal.Stage4.final4_3 (V11 m ρ) c)).trans ?_
  show Cert.Spec.selfTerm (W11 m ρ c (Proc.devRef .tc main_v61_0)) (W11 m ρ c (Proc.devRef .tc main_v62)) (W11 m ρ c (Proc.devRef .tc main_v63)) = _
  rw [w11_v61_0 m ρ c h46, w11_v62, w11_v63]
theorem w12_v38 (c : Dev nD) : W12 (F := Ideal) m ρ c (Proc.devRef .tc main_v38) = val_main_v49 (F := Ideal) (a1 m c) (a2 m c) (a7 m c) (a8 m c) (a9 m c) (a10 m c) :=
  (W12_of_ne m ρ c main_v38 (by decide)).trans (w11_v38 m ρ c)
theorem w12_v1 (c : Dev nD) : W12 (F := Ideal) m ρ c (Proc.devRef .tc main_v1) = val_main_v1 (F := Ideal) (a1 m c) :=
  (W12_of_ne m ρ c main_v1 (by decide)).trans (w11_v1 m ρ c)
theorem w12_v3 (c : Dev nD) : W12 (F := Ideal) m ρ c (Proc.devRef .tc main_v3) = val_main_v3 (F := Ideal) (a1 m c) :=
  (W12_of_ne m ρ c main_v3 (by decide)).trans (w11_v3 m ρ c)

theorem w12_v61_1 (c : Dev nD) (h46 : val_main_v46 (F := Ideal) (a1 m c) = val_main_v3 (F := Ideal) (a1 m c)) :
    (W12 (F := Ideal) m ρ c (Proc.devRef .tc main_v61_1) : FVec Ideal S100000x64 .bf16) = val_main_v72 (F := Ideal) (a0 m c) (a1 m c) (a2 m c) (a3 m c) (a4 m c) (a5 m c) (a7 m c) (a8 m c) (a9 m c) (a10 m c) :=
  (W12_of_ne m ρ c main_v61_1 (by decide)).trans (w11_v61_1 m ρ c h46)

set_option maxHeartbeats 4000000 in
/-- The last stretch, read at the program's result: the messages scattered onto the fifth stage's array. -/
theorem layer2_form (U : Valuation τ sig (Elt Ideal)) (seed : FVec Ideal S100000x64 .f32) (norm : FVec Ideal S1600000 .f32)
    (i1 i3 : IVec S1600000 32) (xwb : FVec Ideal S100000x64 .bf16)
    (h64 : U (Proc.devRef .tc main_v64) = seed) (h38 : U (Proc.devRef .tc main_v38) = norm)
    (h1 : U (Proc.devRef .tc main_v1) = i1) (h3 : U (Proc.devRef .tc main_v3) = i3) (h61 : U (Proc.devRef .tc main_v61_1) = xwb) :
    StableHlo.after (hostOps5 (F := Ideal)) U (Proc.devRef .tc main_v82)
      = Host.scatterAdd scatter_S100000x64_S1600000x1_S1600000x64_1_0_0_1 seed (broadcastInDim S1600000x1 ![0] bcast_S1600000_S1600000x1_0 (select (cmpi .slt i3 (broadcastInDim S1600000 ![] bcast_S_S1600000 (constantI S_ 32 0#32))) (addi i3 (broadcastInDim S1600000 ![] bcast_S_S1600000 (constantI S_ 32 100000#32))) i3)) (mulf (broadcastInDim S1600000x64 ![0, 1] bcast_S1600000x1_S1600000x64_0_1 (broadcastInDim S1600000x1 ![0] bcast_S1600000_S1600000x1_0 norm)) (extf .f32 (Host.gather gather_S100000x64_S1600000x1_S1600000x64_1_0_n_n_0_1_164 xwb (broadcastInDim S1600000x1 ![0] bcast_S1600000_S1600000x1_0 (select (cmpi .slt i1 (broadcastInDim S1600000 ![] bcast_S_S1600000 (constantI S_ 32 0#32))) (addi i1 (broadcastInDim S1600000 ![] bcast_S_S1600000 (constantI S_ 32 100000#32))) i1))) bitsLt_bf16_f32)) := by
  dsimp only [hostOps5]; after_results_simp; rw [h64, h38, h1, h3, h61]

/-- THE RESULT: the program's returned array is the reference's. -/
theorem w13_v82 (c : Dev nD) (h46 : val_main_v46 (F := Ideal) (a1 m c) = val_main_v3 (F := Ideal) (a1 m c)) :
    W13 (F := Ideal) m ρ c (Proc.devRef .tc main_v82) = val_main_v118 (F := Ideal) (a0 m c) (a1 m c) (a2 m c) (a3 m c) (a4 m c) (a5 m c) (a6 m c) (a7 m c) (a8 m c) (a9 m c) (a10 m c) := by
  refine (layer2_form (W12 m ρ c) _ _ _ _ _ (w12_v64 m ρ c h46) (w12_v38 m ρ c) (w12_v1 m ρ c) (w12_v3 m ρ c) (w12_v61_1 m ρ c h46)).trans ?_
  rw [dst_wrap m c h46]
  refine (Cert.RefSide.layer64 _ _ _ _ _ _ _).trans ?_
  unfold val_main_v118 val_main_v115 val_main_v117 val_main_v116 val_main_v110 val_main_v114 val_main_v113 val_main_v112 val_main_v109
    val_main_v107 val_main_v106 val_main_v98
  rw [Cert.RefSide.v111_eq, Cert.RefSide.v97_eq]
  unfold val_main_v105 val_main_v104 val_main_v103 val_main_v102 val_main_v101 val_main_v100 val_main_v99
  rfl

end Cert.KernelIdeal.Host

end
-- ==== Proof.PreIdx.lean ====
/-
  The precondition's last conjunct says that every entry of the edge-index array is at least zero as a signed 32-bit
  number. The reference wraps a negative destination id around (id + 100000 where id < 0, the id itself elsewhere);
  with no negative entry the wrap changes nothing, so the wrapped destination ids are row 1 of the index array itself.
-/
import proofs.«104486_j88356067213587_2_alg».proof.Pre_finite_inputs
import proofs.«104486_j88356067213587_2_alg».proof.Proof.Gen.ReferenceIdeal.Read
import Idealize.ShloMosaic.Lib.ReduceAll
import Idealize.ShloMosaic.Lib.Affine
import Idealize.ShloMosaic.Lib.ValueIdx

noncomputable section

namespace Cert.PreIdx

open Cert.ReferenceIdeal.Read Idealize.ShloMosaic Idealize.ShloMosaic.ValueIdx

/-- The scalar shape has one index. -/
instance subsingleton_scalar_idx : Subsingleton Cert.Pre_finite_inputs.S_.Idx :=
  ⟨fun a b => funext fun d => d.elim0⟩

/-- The precondition's last conjunct at an index: the conjunction is 1, so its right conjunct — the reduction by
    `and` over all of the comparison "entry ≥ 0, signed" — is 1, so the comparison is 1 at every index. -/
theorem idx_sge_zero [hP : Cert.Pre_finite_inputs.Facts] (x0 : FVec Ideal Cert.Pre_finite_inputs.S100000x128 .f32) (x1 : IVec Cert.Pre_finite_inputs.S2x1600000 32)
    (x2 : FVec Ideal Cert.Pre_finite_inputs.S1600000x1 .f32) (x3 : FVec Ideal Cert.Pre_finite_inputs.S128x128 .f32)
    (x4 : FVec Ideal Cert.Pre_finite_inputs.S128 .f32) (x5 : FVec Ideal Cert.Pre_finite_inputs.S128x64 .f32)
    (x6 : FVec Ideal Cert.Pre_finite_inputs.S64 .f32) (x7 : FVec Ideal Cert.Pre_finite_inputs.S1x16 .f32)
    (x8 : FVec Ideal Cert.Pre_finite_inputs.S16 .f32) (x9 : FVec Ideal Cert.Pre_finite_inputs.S16x1 .f32)
    (x10 : FVec Ideal Cert.Pre_finite_inputs.S1 .f32)
    (hpre : Cert.Pre_finite_inputs.fn (F := Ideal) x0 x1 x2 x3 x4 x5 x6 x7 x8 x9 x10 = fun _ => 1#1)
    (i : Cert.Pre_finite_inputs.S2x1600000.Idx) :
    IntOp.cmpi .sge (x1 i) 0#32 = 1#1 := by
  have e := congrFun hpre ix0
  dsimp only [Cert.Pre_finite_inputs.fn, Cert.Pre_finite_inputs.fn_part1, Cert.Pre_finite_inputs.fn_part2,
    Cert.Pre_finite_inputs.fn_part3] at e
  have e2 := (IntOp.andi_eq_one.1 e).2
  exact Host.reduce_andi_all _ _ _ _ _ e2 i

/-- Every entry of the index array, read signed, is at least zero. -/
theorem idx_nonneg [hP : Cert.Pre_finite_inputs.Facts] (x0 : FVec Ideal Cert.Pre_finite_inputs.S100000x128 .f32) (x1 : IVec Cert.Pre_finite_inputs.S2x1600000 32)
    (x2 : FVec Ideal Cert.Pre_finite_inputs.S1600000x1 .f32) (x3 : FVec Ideal Cert.Pre_finite_inputs.S128x128 .f32)
    (x4 : FVec Ideal Cert.Pre_finite_inputs.S128 .f32) (x5 : FVec Ideal Cert.Pre_finite_inputs.S128x64 .f32)
    (x6 : FVec Ideal Cert.Pre_finite_inputs.S64 .f32) (x7 : FVec Ideal Cert.Pre_finite_inputs.S1x16 .f32)
    (x8 : FVec Ideal Cert.Pre_finite_inputs.S16 .f32) (x9 : FVec Ideal Cert.Pre_finite_inputs.S16x1 .f32)
    (x10 : FVec Ideal Cert.Pre_finite_inputs.S1 .f32)
    (hpre : Cert.Pre_finite_inputs.fn (F := Ideal) x0 x1 x2 x3 x4 x5 x6 x7 x8 x9 x10 = fun _ => 1#1)
    (i : Cert.Pre_finite_inputs.S2x1600000.Idx) :
    0 ≤ (x1 i).toInt := by
  have h := IntOp.cmpi_sge.1 (idx_sge_zero x0 x1 x2 x3 x4 x5 x6 x7 x8 x9 x10 hpre i)
  rwa [BitVec.toInt_zero] at h

/-- With no negative entry the reference's wrap-around of the destination ids selects the id itself everywhere. -/
theorem v46_eq [hP : Cert.Pre_finite_inputs.Facts] (x0 : FVec Ideal Cert.Pre_finite_inputs.S100000x128 .f32) (x1 : IVec Cert.Pre_finite_inputs.S2x1600000 32)
    (x2 : FVec Ideal Cert.Pre_finite_inputs.S1600000x1 .f32) (x3 : FVec Ideal Cert.Pre_finite_inputs.S128x128 .f32)
    (x4 : FVec Ideal Cert.Pre_finite_inputs.S128 .f32) (x5 : FVec Ideal Cert.Pre_finite_inputs.S128x64 .f32)
    (x6 : FVec Ideal Cert.Pre_finite_inputs.S64 .f32) (x7 : FVec Ideal Cert.Pre_finite_inputs.S1x16 .f32)
    (x8 : FVec Ideal Cert.Pre_finite_inputs.S16 .f32) (x9 : FVec Ideal Cert.Pre_finite_inputs.S16x1 .f32)
    (x10 : FVec Ideal Cert.Pre_finite_inputs.S1 .f32)
    (hpre : Cert.Pre_finite_inputs.fn (F := Ideal) x0 x1 x2 x3 x4 x5 x6 x7 x8 x9 x10 = fun _ => 1#1) :
    Cert.ReferenceIdeal.Read.val_main_v46 (F := Ideal) x1 = Cert.ReferenceIdeal.Read.val_main_v3 (F := Ideal) x1 := by
  funext i
  have hnn : 0 ≤ (val_main_v3 (F := Ideal) x1 i).toInt := by
    rw [val_main_v3_apply, val_main_v2_apply]
    exact idx_nonneg x0 x1 x2 x3 x4 x5 x6 x7 x8 x9 x10 hpre _
  have hlt : IntOp.cmpi .slt (val_main_v3 (F := Ideal) x1 i) 0#32 = 0#1 :=
    eq_zero_of_ne_one fun h1 => by
      have h2 := IntOp.cmpi_slt.1 h1
      rw [BitVec.toInt_zero] at h2
      omega
  rw [val_main_v46_apply, val_main_v43_apply, val_main_v42_apply, val_main_c_8_apply, hlt, select_zero]

end Cert.PreIdx

end
-- ==== Proof.lean ====
/-
  The certificate's five claims for the curvature-weighted two-layer graph convolution.

  The three frames: the two kernel programs by their generated frames; the reference by its generated run with the
  result dropped.  The idealization rewrote nothing, so the preservation claim is trivial.

  The algebraic claim.  Under the stated domain (finite float inputs, non-negative node ids) both programs end with
  the same array, the reference's composed value of the arguments.  The idealized kernel program's run names its
  result as the fold of its thirteen segments over the launch memory; that fold is walked once, boundary by boundary:
  the per-edge weights (a tiled stage) are the reference's two small products and logistic; the degrees are the same
  scatter of the same weights; the kernel program's extra guard max(deg, 1e-30) under the inverse square root never
  binds because every degree is at least 1; each dense product (a tiled stage, operands rounded to bf16: the identity
  on extended reals) is the reference's matrix product; and per layer the messages scattered ONTO the self-loop term
  (a tiled stage) equal the reference's scatter onto zeros plus the self-loop product plus the bias, by commutativity
  and associativity of addition alone.  The kernel program's scatter wraps negative destination ids and the
  reference's segment sum drops them: on the stated domain there are none.
-/
import proofs.«104486_j88356067213587_2_alg».proof.Defs
import proofs.«104486_j88356067213587_2_alg».proof.Proof.Gen.Kernel
import proofs.«104486_j88356067213587_2_alg».proof.Proof.Gen.Kernel.Frame
import proofs.«104486_j88356067213587_2_alg».proof.Proof.Gen.KernelIdeal
import proofs.«104486_j88356067213587_2_alg».proof.Proof.Gen.KernelIdeal.Frame
import proofs.«104486_j88356067213587_2_alg».proof.Proof.Gen.ReferenceIdeal
import proofs.«104486_j88356067213587_2_alg».proof.Proof.Gen.ReferenceIdeal.Run
import proofs.«104486_j88356067213587_2_alg».proof.Proof.Gen.ReferenceIdeal.Read
import proofs.«104486_j88356067213587_2_alg».proof.Proof.Gen.Pre_finite_inputs
import proofs.«104486_j88356067213587_2_alg».proof.Proof.KRun
import proofs.«104486_j88356067213587_2_alg».proof.Proof.KHost3
import proofs.«104486_j88356067213587_2_alg».proof.Proof.PreIdx
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's value of the (shared) arguments. -/
theorem algebraic : Cert.algebraic_KernelIdeal_ReferenceIdeal := by
  intro m ρ m' ρ' hpre hagree
  refine ⟨fun c => Cert.ReferenceIdeal.Read.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩) (Cert.KernelIdeal.Out.run (F := Ideal) m ρ)
    exact Cert.KernelIdeal.Host.w13_v82 m ρ c (Cert.PreIdx.v46_eq _ _ _ _ _ _ _ _ _ _ _ (hpre c))
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v118_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
